-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x8x3072 : Shape := ⟨4, ![8, 512, 8, 3072]⟩
abbrev S8x512x8 : Shape := ⟨3, ![8, 512, 8]⟩
abbrev S3072x1024 : Shape := ⟨2, ![3072, 1024]⟩
abbrev S1024 : Shape := ⟨1, ![1024]⟩
abbrev S2048x1024 : Shape := ⟨2, ![2048, 1024]⟩
abbrev S1024x1 : Shape := ⟨2, ![1024, 1]⟩
abbrev S1 : Shape := ⟨1, ![1]⟩
abbrev S_ : Shape := ⟨0, ![]⟩

class Facts : Prop where
  bcast_S_S8x512x8x3072 : S_.BroadcastsInDim S8x512x8x3072 (![] : Fin 0 → Fin S8x512x8x3072.rank)
  reducesTo_S8x512x8x3072_S_d0_1_2_3 : S8x512x8x3072.ReducesTo [0, 1, 2, 3] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1024 .f32) (main_arg6 : FVec F S1024x1 .f32) (main_arg7 : FVec F S1 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1 .f32 := Host.absf main_arg6
  let main_cst_8 : FVec F S_ .f32 := constant S_ .f32 0x7F800000#32
  let main_v25 : FVec F S1024x1 .f32 := broadcastInDim S1024x1 ![] bcast_S_S1024x1 main_cst_8
  let main_v26 : IVec S1024x1 1 := cmpf .olt main_v24 main_v25
  let main_c_9 : IVec S_ 1 := constantI S_ 1 1#1
  let main_v27 : IVec S_ 1 := (fun x v => Host.reduce IntOp.andi x v reducesTo_S1024x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8x512x8x3072 .f32) (main_arg1 : IVec S8x512x8 32) (main_arg2 : FVec F S3072x1024 .f32) (main_arg3 : FVec F S1024 .f32) (main_arg4 : FVec F S2048x1024 .f32) (main_arg5 : FVec F S1024 .f32) (main_arg6 : FVec F S1024x1 .f32) (main_arg7 : FVec F S1 .f32) : IVec S_ 1 :=
  let main_v0 : FVec F S8x512x8x3072 .f32 := Host.absf main_arg0
  let main_cst : FVec F S_ .f32 := constant S_ .f32 0x7F800000#32
  let main_v1 : FVec F S8x512x8x3072 .f32 := broadcastInDim S8x512x8x3072 ![] bcast_S_S8x512x8x3072 main_cst
  let main_v2 : IVec S8x512x8x3072 1 := cmpf .olt main_v0 main_v1
  let main_c : IVec S_ 1 := constantI S_ 1 1#1
  let main_v3 : IVec S_ 1 := (fun x v => Host.reduce IntOp.andi x v reducesTo_S8x512x8x3072_S_d0_1_2_3 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_arg6 main_arg7 main_v13 main_v16
-- ==== Kernel.lean ====
abbrev S8x512x8x3072 : Shape := ⟨4, ![8, 512, 8, 3072]⟩
abbrev S8x512x8 : Shape := ⟨3, ![8, 512, 8]⟩
abbrev S3072x1024 : Shape := ⟨2, ![3072, 1024]⟩
abbrev S1024 : Shape := ⟨1, ![1024]⟩
abbrev S2048x1024 : Shape := ⟨2, ![2048, 1024]⟩
abbrev S1024x1 : Shape := ⟨2, ![1024, 1]⟩
abbrev S1 : Shape := ⟨1, ![1]⟩
abbrev S32768x3072 : Shape := ⟨2, ![32768, 3072]⟩
abbrev S1x1024 : Shape := ⟨2, ![1, 1024]⟩
abbrev S32768x1024 : Shape := ⟨2, ![32768, 1024]⟩
abbrev S1024x3072 : Shape := ⟨2, ![1024, 3072]⟩
abbrev S1024x1024 : Shape := ⟨2, ![1024, 1024]⟩
abbrev S8x512x8x1024 : Shape := ⟨4, ![8, 512, 8, 1024]⟩
abbrev S_ : Shape := ⟨0, ![]⟩
abbrev S8x1x8x1024 : Shape := ⟨4, ![8, 1, 8, 1024]⟩
abbrev S8x511x8x1024 : Shape := ⟨4, ![8, 511, 8, 1024]⟩
abbrev S1x1 : Shape := ⟨2, ![1, 1]⟩
abbrev S32768x1 : Shape := ⟨2, ![32768, 1]⟩
abbrev S2048x1 : Shape := ⟨2, ![2048, 1]⟩
abbrev S8x512 : Shape := ⟨2, ![8, 512]⟩
abbrev S8x512x1 : Shape := ⟨3, ![8, 512, 1]⟩

abbrev nBuf : Space → Nat
  | .hbm => 50
  | .vmem => 17
  | .smem => 0
  | _ => 0

abbrev bufTy : (tb : Table) → Fin (tcTables nBuf tb) → BufTy
  | .hbm, ⟨0, _⟩ => ⟨S8x512x8x3072, .f32⟩
  | .hbm, ⟨1, _⟩ => ⟨S8x512x8, .i32⟩
  | .hbm, ⟨2, _⟩ => ⟨S3072x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32768x3072, .f32⟩
  | .hbm, ⟨9, _⟩ => ⟨S32768x3072, .bf16⟩
  | .hbm, ⟨10, _⟩ => ⟨S3072x1024, .bf16⟩
  | .hbm, ⟨11, _⟩ => ⟨S1x1024, .f32⟩
  | .hbm, ⟨12, _⟩ => ⟨S32768x1024, .f32⟩
  | .hbm, ⟨13, _⟩ => ⟨S8x512x8x1024, .f32⟩
  | .hbm, ⟨14, _⟩ => ⟨S_, .f32⟩
  | .hbm, ⟨15, _⟩ => ⟨S_, .f32⟩
  | .hbm, ⟨16, _⟩ => ⟨S8x512x8x1024, .f32⟩
  | .hbm, ⟨17, _⟩ => ⟨S8x1x8x1024, .f32⟩
  | .hbm, ⟨18, _⟩ => ⟨S_, .f32⟩
  | .hbm, ⟨19, _⟩ => ⟨S8x1x8x1024, .f32⟩
  | .hbm, ⟨20, _⟩ => ⟨S8x511x8x1024, .f32⟩
  | .hbm, ⟨21, _⟩ => ⟨S8x512x8x1024, .f32⟩
  | .hbm, ⟨22, _⟩ => ⟨S32768x1024, .bf16⟩
  | .hbm, ⟨23, _⟩ => ⟨S32768x1024, .f32⟩
  | .hbm, ⟨24, _⟩ => ⟨S32768x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S1x1024, .f32⟩
  | .hbm, ⟨30, _⟩ => ⟨S1024x1, .bf16⟩
  | .hbm, ⟨31, _⟩ => ⟨S1x1, .f32⟩
  | .hbm, ⟨32, _⟩ => ⟨S32768x1, .f32⟩
  | .hbm, ⟨33, _⟩ => ⟨S8x512x8, .f32⟩
  | .hbm, ⟨34, _⟩ => ⟨S_, .f32⟩
  | .hbm, ⟨35, _⟩ => ⟨S8x512, .f32⟩
  | .hbm, ⟨36, _⟩ => ⟨S_, .f32⟩
  | .hbm, ⟨37, _⟩ => ⟨S8x512, .f32⟩
  | .hbm, ⟨38, _⟩ => ⟨S8x512, .f32⟩
  | .hbm, ⟨39, _⟩ => ⟨S8x512x1, .f32⟩
  | .hbm, ⟨40, _⟩ => ⟨S8x512x8, .f32⟩
  | .hbm, ⟨41, _⟩ => ⟨S8x512x8, .f32⟩
  | .hbm, ⟨42, _⟩ => ⟨S8x512x8, .f32⟩
  | .hbm, ⟨43, _⟩ => ⟨S_, .f32⟩
  | .hbm, ⟨44, _⟩ => ⟨S8x512, .f32⟩
  | .hbm, ⟨45, _⟩ => ⟨S8x512x1, .f32⟩
  | .hbm, ⟨46, _⟩ => ⟨S8x512x8, .f32⟩
  | .hbm, ⟨47, _⟩ => ⟨S8x512x8, .f32⟩
  | .hbm, ⟨48, _⟩ => ⟨S8x512x8, .f32⟩
  | .hbm, ⟨49, _⟩ => ⟨S8x512x8, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1, .bf16⟩
  | .local _ .vmem, ⟨14, _⟩ => ⟨S1x1, .f32⟩
  | .local _ .vmem, ⟨15, _⟩ => ⟨S2048x1, .f32⟩
  | .local _ .vmem, ⟨16, _⟩ => ⟨S2048x1, .f32⟩
  | _, _ => ⟨S8x512x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S8x512x8x3072_S32768x3072 : S8x512x8x3072.ShapeCasts S32768x3072
  bitsLt_bf16_f32 : FTy.bits .bf16 < FTy.bits .f32
  shapeCasts_S1024_S1x1024 : S1024.ShapeCasts S1x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S32768x1024_S8x512x8x1024 : S32768x1024.ShapeCasts S8x512x8x1024
  bcast_S_S_ : S_.BroadcastsInDim S_ (![] : Fin 0 → Fin S_.rank)
  reduceWindows_S8x512x8x1024_S8x512x8x1024_w1s1p0_0_w512s1p511_0_w1s1p0_0_w1s1p0_0 : S8x512x8x1024.ReduceWindows (![1, 512, 1, 1] : Fin 4 → Nat) ![1, 1, 1, 1] ![0, 511, 0, 0] ![0, 0, 0, 0] S8x512x8x1024
  h_S_ : 0 < S_.numel
  slices_S8x512x8x1024_S8x1x8x1024_0_0_0_0 : S8x512x8x1024.Slices ![0, 0, 0, 0] S8x1x8x1024
  bcast_S_S8x1x8x1024 : S_.BroadcastsInDim S8x1x8x1024 (![] : Fin 0 → Fin S8x1x8x1024.rank)
  slices_S8x512x8x1024_S8x511x8x1024_0_0_0_0 : S8x512x8x1024.Slices ![0, 0, 0, 0] S8x511x8x1024
  concatenates_S8x1x8x1024_S8x511x8x1024_S8x512x8x1024_d1 : Shape.Concatenates [S8x1x8x1024, S8x511x8x1024] S8x512x8x1024 1
  shapeCasts_S8x512x8x1024_S32768x1024 : S8x512x8x1024.ShapeCasts S32768x1024
  slices_S2048x1024_S1024x1024_0_0 : S2048x1024.Slices ![0, 0] S1024x1024
  slices_S2048x1024_S1024x1024_1024_0 : S2048x1024.Slices ![1024, 0] S1024x1024
  shapeCasts_S1_S1x1 : S1.ShapeCasts S1x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x1024_S1024x1024 : S1024x1024.ShapeCasts S1024x1024
  broadcasts_S1x1024_S2048x1024 : S1x1024.Broadcasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S32768x1_S8x512x8 : S32768x1.ShapeCasts S8x512x8
  reducesTo_S8x512x8_S8x512_d2 : S8x512x8.ReducesTo [2] S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x8_0_1_2 : S8x512x1.BroadcastsInDim S8x512x8 (![0, 1, 2] : Fin 3 → Fin S8x512x8.rank)
  dot_S1024x3072_S3072x1024_S1024x1024_1_0_0_1_n_n_wf : DotDims.WF S1024x3072 S3072x1024 S1024x1024 [1] [0] [0] [1] [] []
  dot_S2048x1024_S1024x1024_S2048x1024_1_0_0_1_n_n_wf : DotDims.WF S2048x1024 S1024x1024 S2048x1024 [1] [0] [0] [1] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S32768x3072.size a
  hwx0_0 : ∀ i : grid0.Coords, EltTy.bits .bf16 = 32 ∨ (Rect.block (s := S32768x3072) S1024x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S32768x1024.size a
  hwx1_0 : ∀ i : grid1.Coords, EltTy.bits .bf16 = 32 ∨ (Rect.block (s := S32768x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S32768x1024.size a
  hwx1_1 : ∀ i : grid1.Coords, EltTy.bits .bf16 = 32 ∨ (Rect.block (s := S32768x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .bf16 = 32 ∨ (Rect.block (s := S1024x1) S1024x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S32768x1.size a
  hwx1_7 : ∀ i : grid1.Coords, EltTy.bits .f32 = 32 ∨ (Rect.block (s := S32768x1) S2048x1.size (cc1_transform_7 i) (hinb1_7 i)).WholeWords (EltTy.packing .f32)

variable [Facts₀]

def dot_S1024x3072_S3072x1024_S1024x1024_1_0_0_1_n_n : DotDims S1024x3072 S3072x1024 S1024x1024 where
  lhsContracting := [1]
  rhsContracting := [0]
  lhsNonContracting := [0]
  rhsNonContracting := [1]
  lhsBatch := []
  rhsBatch := []
  wf := dot_S1024x3072_S3072x1024_S1024x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_v1) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S2048x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x512x8x3072 : Shape := ⟨4, ![8, 512, 8, 3072]⟩
abbrev S8x512x8 : Shape := ⟨3, ![8, 512, 8]⟩
abbrev S3072x1024 : Shape := ⟨2, ![3072, 1024]⟩
abbrev S1024 : Shape := ⟨1, ![1024]⟩
abbrev S2048x1024 : Shape := ⟨2, ![2048, 1024]⟩
abbrev S1024x1 : Shape := ⟨2, ![1024, 1]⟩
abbrev S1 : Shape := ⟨1, ![1]⟩
abbrev S8x512x8x1024 : Shape := ⟨4, ![8, 512, 8, 1024]⟩
abbrev S1x1x1x1024 : Shape := ⟨4, ![1, 1, 1, 1024]⟩
abbrev S_ : Shape := ⟨0, ![]⟩
abbrev S8x1x8x1024 : Shape := ⟨4, ![8, 1, 8, 1024]⟩
abbrev S8x511x8x1024 : Shape := ⟨4, ![8, 511, 8, 1024]⟩
abbrev S8x512x8x2048 : Shape := ⟨4, ![8, 512, 8, 2048]⟩
abbrev S8x512x8x1 : Shape := ⟨4, ![8, 512, 8, 1]⟩
abbrev S1x1x1x1 : Shape := ⟨4, ![1, 1, 1, 1]⟩
abbrev S8x512 : Shape := ⟨2, ![8, 512]⟩
abbrev S8x512x1 : Shape := ⟨3, ![8, 512, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x512x8x3072, .f32⟩
  | .hbm, ⟨1, _⟩ => ⟨S8x512x8, .i32⟩
  | .hbm, ⟨2, _⟩ => ⟨S3072x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S8x512x8x1024, .f32⟩
  | .hbm, ⟨9, _⟩ => ⟨S1x1x1x1024, .f32⟩
  | .hbm, ⟨10, _⟩ => ⟨S8x512x8x1024, .f32⟩
  | .hbm, ⟨11, _⟩ => ⟨S8x512x8x1024, .f32⟩
  | .hbm, ⟨12, _⟩ => ⟨S_, .f32⟩
  | .hbm, ⟨13, _⟩ => ⟨S_, .f32⟩
  | .hbm, ⟨14, _⟩ => ⟨S8x512x8x1024, .f32⟩
  | .hbm, ⟨15, _⟩ => ⟨S8x1x8x1024, .f32⟩
  | .hbm, ⟨16, _⟩ => ⟨S_, .f32⟩
  | .hbm, ⟨17, _⟩ => ⟨S8x1x8x1024, .f32⟩
  | .hbm, ⟨18, _⟩ => ⟨S8x511x8x1024, .f32⟩
  | .hbm, ⟨19, _⟩ => ⟨S8x512x8x1024, .f32⟩
  | .hbm, ⟨20, _⟩ => ⟨S8x512x8x2048, .f32⟩
  | .hbm, ⟨21, _⟩ => ⟨S8x512x8x1024, .f32⟩
  | .hbm, ⟨22, _⟩ => ⟨S1x1x1x1024, .f32⟩
  | .hbm, ⟨23, _⟩ => ⟨S8x512x8x1024, .f32⟩
  | .hbm, ⟨24, _⟩ => ⟨S8x512x8x1024, .f32⟩
  | .hbm, ⟨25, _⟩ => ⟨S_, .f32⟩
  | .hbm, ⟨26, _⟩ => ⟨S8x512x8x1024, .f32⟩
  | .hbm, ⟨27, _⟩ => ⟨S8x512x8x1024, .f32⟩
  | .hbm, ⟨28, _⟩ => ⟨S8x512x8x1, .f32⟩
  | .hbm, ⟨29, _⟩ => ⟨S1x1x1x1, .f32⟩
  | .hbm, ⟨30, _⟩ => ⟨S8x512x8x1, .f32⟩
  | .hbm, ⟨31, _⟩ => ⟨S8x512x8x1, .f32⟩
  | .hbm, ⟨32, _⟩ => ⟨S8x512x8, .f32⟩
  | .hbm, ⟨33, _⟩ => ⟨S_, .f32⟩
  | .hbm, ⟨34, _⟩ => ⟨S8x512, .f32⟩
  | .hbm, ⟨35, _⟩ => ⟨S_, .f32⟩
  | .hbm, ⟨36, _⟩ => ⟨S8x512, .f32⟩
  | .hbm, ⟨37, _⟩ => ⟨S8x512, .f32⟩
  | .hbm, ⟨38, _⟩ => ⟨S8x512x1, .f32⟩
  | .hbm, ⟨39, _⟩ => ⟨S8x512x8, .f32⟩
  | .hbm, ⟨40, _⟩ => ⟨S8x512x8, .f32⟩
  | .hbm, ⟨41, _⟩ => ⟨S8x512x8, .f32⟩
  | .hbm, ⟨42, _⟩ => ⟨S_, .f32⟩
  | .hbm, ⟨43, _⟩ => ⟨S8x512, .f32⟩
  | .hbm, ⟨44, _⟩ => ⟨S8x512x1, .f32⟩
  | .hbm, ⟨45, _⟩ => ⟨S8x512x8, .f32⟩
  | .hbm, ⟨46, _⟩ => ⟨S8x512x8, .f32⟩
  | .hbm, ⟨47, _⟩ => ⟨S8x512x8, .f32⟩
  | .hbm, ⟨48, _⟩ => ⟨S8x512x8, .f32⟩
  | _, _ => ⟨S8x512x8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_cst : Ref sig .tc := ⟨.hbm, 25, rfl⟩
abbrev main_call1_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S8x512x8x1024_0_1_2_3 : S1x1x1x1024.BroadcastsInDim S8x512x8x1024 (![0, 1, 2, 3] : Fin 4 → Fin S8x512x8x1024.rank)
  bcast_S_S_ : S_.BroadcastsInDim S_ (![] : Fin 0 → Fin S_.rank)
  reduceWindows_S8x512x8x1024_S8x512x8x1024_w1s1p0_0_w512s1p511_0_w1s1p0_0_w1s1p0_0 : S8x512x8x1024.ReduceWindows (![1, 512, 1, 1] : Fin 4 → Nat) ![1, 1, 1, 1] ![0, 511, 0, 0] ![0, 0, 0, 0] S8x512x8x1024
  h_S_ : 0 < S_.numel
  slices_S8x512x8x1024_S8x1x8x1024_0_0_0_0 : S8x512x8x1024.Slices ![0, 0, 0, 0] S8x1x8x1024
  bcast_S_S8x1x8x1024 : S_.BroadcastsInDim S8x1x8x1024 (![] : Fin 0 → Fin S8x1x8x1024.rank)
  slices_S8x512x8x1024_S8x511x8x1024_0_0_0_0 : S8x512x8x1024.Slices ![0, 0, 0, 0] S8x511x8x1024
  concatenates_S8x1x8x1024_S8x511x8x1024_S8x512x8x1024_d1 : Shape.Concatenates [S8x1x8x1024, S8x511x8x1024] S8x512x8x1024 1
  concatenates_S8x512x8x1024_S8x512x8x1024_S8x512x8x2048_d3 : Shape.Concatenates [S8x512x8x1024, S8x512x8x1024] S8x512x8x2048 3
  bcast_S_S8x512x8x1024 : S_.BroadcastsInDim S8x512x8x1024 (![] : Fin 0 → Fin S8x512x8x1024.rank)
  bcast_S1_S1x1x1x1_3 : S1.BroadcastsInDim S1x1x1x1 (![3] : Fin 1 → Fin S1x1x1x1.rank)
  bcast_S1x1x1x1_S8x512x8x1_0_1_2_3 : S1x1x1x1.BroadcastsInDim S8x512x8x1 (![0, 1, 2, 3] : Fin 4 → Fin S8x512x8x1.rank)
  shapeCasts_S8x512x8x1_S8x512x8 : S8x512x8x1.ShapeCasts S8x512x8
  reducesTo_S8x512x8_S8x512_d2 : S8x512x8.ReducesTo [2] S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x8_0_1_2 : S8x512x1.BroadcastsInDim S8x512x8 (![0, 1, 2] : Fin 3 → Fin S8x512x8.rank)
  dot_S8x512x8x3072_S3072x1024_S8x512x8x1024_3_0_012_1_n_n_wf : DotDims.WF S8x512x8x3072 S3072x1024 S8x512x8x1024 [3] [0] [0, 1, 2] [1] [] []
  dot_S8x512x8x2048_S2048x1024_S8x512x8x1024_3_0_012_1_n_n_wf : DotDims.WF S8x512x8x2048 S2048x1024 S8x512x8x1024 [3] [0] [0, 1, 2] [1] [] []
  dot_S8x512x8x1024_S1024x1_S8x512x8x1_3_0_012_1_n_n_wf : DotDims.WF S8x512x8x1024 S1024x1 S8x512x8x1 [3] [0] [0, 1, 2] [1] [] []

variable [Facts₀]

def dot_S8x512x8x3072_S3072x1024_S8x512x8x1024_3_0_012_1_n_n : DotDims S8x512x8x3072 S3072x1024 S8x512x8x1024 where
  lhsContracting := [3]
  rhsContracting := [0]
  lhsNonContracting := [0, 1, 2]
  rhsNonContracting := [1]
  lhsBatch := []
  rhsBatch := []
  wf := dot_S8x512x8x3072_S3072x1024_S8x512x8x1024_3_0_012_1_n_n_wf
def dot_S8x512x8x2048_S2048x1024_S8x512x8x1024_3_0_012_1_n_n : DotDims S8x512x8x2048 S2048x1024 S8x512x8x1024 where
  lhsContracting := [3]
  rhsContracting := [0]
  lhsNonContracting := [0, 1, 2]
  rhsNonContracting := [1]
  lhsBatch := []
  rhsBatch := []
  wf := dot_S8x512x8x2048_S2048x1024_S8x512x8x1024_3_0_012_1_n_n_wf
def dot_S8x512x8x1024_S1024x1_S8x512x8x1_3_0_012_1_n_n : DotDims S8x512x8x1024 S1024x1 S8x512x8x1 where
  lhsContracting := [3]
  rhsContracting := [0]
  lhsNonContracting := [0, 1, 2]
  rhsNonContracting := [1]
  lhsBatch := []
  rhsBatch := []
  wf := dot_S8x512x8x1024_S1024x1_S8x512x8x1_3_0_012_1_n_n_wf

class Facts : Prop extends Facts₀ where

variable [Facts]
-- ==== Proof.KernelRun.lean ====
/-
  The idealized kernel's run, with its result named.

  The generated frame certificate runs @main as seven segments, four stretches of host operations and two kernel
  regions, and names the buffer contents at every boundary between them: `W0` at launch, up to `W7` after the last
  stretch.  Its closing step reads the final state against `W7` and keeps only the argument arrays.  Here the same
  run is read once more and the result buffer is kept as well: after every weakly fair execution the result array is
  `W7 … main_v35`, and the eight argument arrays are as launched.
-/
import proofs.«112848_j2010044694969_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which unfolds
-- plain definitions in a metavariable's type
set_option backward.isDefEq.respectTransparency.types false in
/-- Every weakly fair execution of @main terminates without a fault; the result array then holds the last boundary's
    contents at `main_v35`, and each argument array what it held at launch.  The segments, the launch and the two
    reads of the thread state are the generated frame's; the last step reads one more buffer off the final state. -/
theorem result : θ_run defs (onTc (τ := τ) (main (F := F))) ⟨m, fun _ => 0, ρ⟩ (fun r => ∀ c : Dev nD,
      r.2.mem ((c.tc : Thread nD τ).loc main_v35) = W7 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v35 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Run

end
-- ==== Proof.HostGlue.lean ====
/-
  The host operations around the idealized kernel's two regions, read at an index.

  Between the launch and the first region the program reshapes `x` from [8, 512, 8, 3072] to [32768, 3072], row
  `(b·512 + s)·8 + k` of the matrix being the vector at `(b, s, k)`, rounds `x` and `W1` to a narrower format (the
  identity on the extended reals) and reshapes `b1` to one row.  Between the regions it reshapes the first region's
  result back to [8, 512, 8, 1024] (`sent`), takes the running maximum of `sent` along the second axis, shifts it
  down by one place behind a row of zeros (`before`), and hands both, as matrices of 32768 rows, to the second
  region together with the two halves of `W2`, `b2` as a row, `W3` and `b3` as a one-by-one matrix.  After the second
  region it reshapes the 32768 logits to [8, 512, 8] and takes a softmax along the last axis, masked by `mask_cls`.

  Each lemma below reads one of those buffers at an index, at the boundary where a region finds it, in terms of the
  argument arrays as launched and of the first region's result.
-/
import proofs.«112848_j2010044694969_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen Cert.KernelIdeal.Facts₀ Cert.KernelIdeal.Facts
open Idealize.ShloMosaic Idealize.ShloMosaic.ValueIdx Idealize.ShloMosaic.TcCoe Idealize.ShloMosaic.StableHlo Idealize.SL.Sem

/-- The matrix row that holds the vector at `(b, s, k)`: its position in row-major order. -/
def row (b : Fin 8) (s : Fin 512) (k : Fin 8) : Fin 32768 :=
  ⟨(b.val * 512 + s.val) * 8 + k.val, by have := b.isLt; have := s.isLt; have := k.isLt; omega⟩

theorem row_val (b : Fin 8) (s : Fin 512) (k : Fin 8) : (row b s k).val = (b.val * 512 + s.val) * 8 + k.val := rfl

variable (m : (ℓ : Loc nD τ sig) → Buf (Elt Ideal) ℓ) (ρ : Dev nD → PrngReg) (c : Dev nD)

/-! ## The argument arrays at the boundaries: no host operation and no region writes one -/

/-- At the first region's exit an argument array is as launched. -/
theorem exit0_arg (r : Ref sig .tc) (hr : ∀ w, Pipeline.arrRef spec0 w ≠ r)
    (h0 : StableHlo.after hostOps0 (W0 m ρ c) (Proc.devRef .tc r) = m ((c : Thread nD τ).loc r)) :
    W2 m ρ c (Proc.devRef .tc r) = m ((c : Thread nD τ).loc r) :=
  (W2_of_ne m ρ c r hr).trans h0

theorem exit0_arg1 : W2 m ρ c (Proc.devRef .tc main_arg1) = m ((c : Thread nD τ).loc main_arg1) :=
  exit0_arg m ρ c main_arg1 (by decide) (by after_results)
theorem exit0_arg4 : W2 m ρ c (Proc.devRef .tc main_arg4) = m ((c : Thread nD τ).loc main_arg4) :=
  exit0_arg m ρ c main_arg4 (by decide) (by after_results)
theorem exit0_arg5 : W2 m ρ c (Proc.devRef .tc main_arg5) = m ((c : Thread nD τ).loc main_arg5) :=
  exit0_arg m ρ c main_arg5 (by decide) (by after_results)
theorem exit0_arg6 : W2 m ρ c (Proc.devRef .tc main_arg6) = m ((c : Thread nD τ).loc main_arg6) :=
  exit0_arg m ρ c main_arg6 (by decide) (by after_results)
theorem exit0_arg7 : W2 m ρ c (Proc.devRef .tc main_arg7) = m ((c : Thread nD τ).loc main_arg7) :=
  exit0_arg m ρ c main_arg7 (by decide) (by after_results)

/-! ## What the first region finds -/

/-- Its left operand is `x` as a matrix: row `row b s k` is the vector of `x` at `(b, s, k)`. -/
theorem entry0_x (b : Fin 8) (s : Fin 512) (k : Fin 8) (f : Fin 3072) :
    (V1 m ρ c main_v1 : S32768x3072.Idx → EReal) (ix2 (row b s k) f)
      = (m ((c : Thread nD τ).loc main_arg0) : S8x512x8x3072.Idx → EReal) (ix4 b s k f) := by
  have e : (V1 m ρ c main_v1 : S32768x3072.Idx → EReal)
      = shapeCast S32768x3072 (m ((c : Thread nD τ).loc main_arg0) : S8x512x8x3072.Idx → EReal)
          Facts₀.shapeCasts_S8x512x8x3072_S32768x3072 := by
    show StableHlo.after hostOps0 (W0 m ρ c) (Proc.devRef .tc main_v1) = _
    after_results
    rfl
  rw [e]
  refine shapeCast_apply _ _ _ _ ?_
  show (S8x512x8x3072.rowMajor (ix4 b s k f)).val = (S32768x3072.rowMajor (ix2 (row b s k) f)).val
  rw [Shape.rowMajor_val_four, Shape.rowMajor_val_two]
  show ((b.val * 512 + s.val) * 8 + k.val) * 3072 + f.val = (row b s k).val * 3072 + f.val
  rw [row_val]

/-- Its right operand is `W1`. -/
theorem entry0_w (f : Fin 3072) (h : Fin 1024) :
    (V1 m ρ c main_v2 : S3072x1024.Idx → EReal) (ix2 f h)
      = (m ((c : Thread nD τ).loc main_arg2) : S3072x1024.Idx → EReal) (ix2 f h) := by
  have e : (V1 m ρ c main_v2 : S3072x1024.Idx → EReal) = (m ((c : Thread nD τ).loc main_arg2) : S3072x1024.Idx → EReal) := by
    show StableHlo.after hostOps0 (W0 m ρ c) (Proc.devRef .tc main_v2) = _
    after_results
    rfl
  rw [e]

/-- Its one-row operand is `b1`. -/
theorem entry0_b (h : Fin 1024) :
    (V1 m ρ c main_v3 : S1x1024.Idx → EReal) (ix2 (0 : Fin 1) h)
      = (m ((c : Thread nD τ).loc main_arg3) : S1024.Idx → EReal) (ix1 h) := by
  have e : (V1 m ρ c main_v3 : S1x1024.Idx → EReal)
      = shapeCast S1x1024 (m ((c : Thread nD τ).loc main_arg3) : S1024.Idx → EReal) Facts₀.shapeCasts_S1024_S1x1024 := by
    show StableHlo.after hostOps0 (W0 m ρ c) (Proc.devRef .tc main_v3) = _
    after_results
    rfl
  rw [e]
  refine shapeCast_apply _ _ _ _ ?_
  show (S1024.rowMajor (ix1 h)).val = (S1x1024.rowMajor (ix2 (0 : Fin 1) h)).val
  rw [Shape.rowMajor_val_one, Shape.rowMajor_val_two]
  show h.val = 0 * 1024 + h.val
  omega

/-! ## Between the regions -/

/-- The running maximum of `S` along the second axis, shifted down by one place behind a row of zeros: at `(b, 0, k, h)` it
    is zero, at `(b, s + 1, k, h)` the maximum of `S` over the places `0 … s` of that axis (a window of 512 places ending at
    the place, the 511 places of padding in front filled with the initial value `-∞`). -/
def before (S : (⟨S8x512x8x1024, .f32⟩ : BufTy).Contents (Elt Ideal)) : (⟨S8x512x8x1024, .f32⟩ : BufTy).Contents (Elt Ideal) :=
  concatenate S8x512x8x1024 1
    [⟨S8x1x8x1024, broadcastInDim S8x1x8x1024 ![] Gen.bcast_S_S8x1x8x1024 (constant (F := Ideal) S_ .f32 0x00000000#32)⟩,
     ⟨S8x511x8x1024, extractStridedSlice S8x511x8x1024 ![0, 0, 0, 0]
        (Host.reduceWindow (FloatOps.maximumf (F := Ideal) (φ := .f32)) ![1, 512, 1, 1] ![1, 1, 1, 1] ![0, 511, 0, 0] ![0, 0, 0, 0] S
          (broadcastInDim S_ ![] Gen.bcast_S_S_ (constant (F := Ideal) S_ .f32 0xFF800000#32))
          Gen.reduceWindows_S8x512x8x1024_S8x512x8x1024_w1s1p0_0_w512s1p511_0_w1s1p0_0_w1s1p0_0 Gen.h_S_)
        Gen.slices_S8x512x8x1024_S8x511x8x1024_0_0_0_0⟩]
    Gen.concatenates_S8x1x8x1024_S8x511x8x1024_S8x512x8x1024_d1

/-- `exp (L − max L)` along the last axis, the maximum taken against `-∞`. -/
def expShifted (L : (⟨S8x512x8, .f32⟩ : BufTy).Contents (Elt Ideal)) : (⟨S8x512x8, .f32⟩ : BufTy).Contents (Elt Ideal) :=
  Host.exp (F := Ideal) (subf L
    (broadcastInDim S8x512x8 ![0, 1, 2] Gen.bcast_S8x512x1_S8x512x8_0_1_2
      (broadcastInDim S8x512x1 ![0, 1] Gen.bcast_S8x512_S8x512x1_0_1
        (maximumf (broadcastInDim S8x512 ![] Gen.bcast_S_S8x512 (constant (F := Ideal) S_ .f32 0xFF800000#32))
          (Host.reduce (FloatOps.maximumf (F := Ideal) (φ := .f32)) L (constant (F := Ideal) S_ .f32 0xFF800000#32)
            Gen.reducesTo_S8x512x8_S8x512_d2 Gen.h_S_)))))

/-- The softmax of `L` along the last axis, times the mask `M` read as numbers. -/
def softmaxMasked (L : (⟨S8x512x8, .f32⟩ : BufTy).Contents (Elt Ideal)) (M : (⟨S8x512x8, .i32⟩ : BufTy).Contents (Elt Ideal)) : (⟨S8x512x8, .f32⟩ : BufTy).Contents (Elt Ideal) :=
  mulf (Host.divf (F := Ideal) (expShifted L)
      (broadcastInDim S8x512x8 ![0, 1, 2] Gen.bcast_S8x512x1_S8x512x8_0_1_2
        (broadcastInDim S8x512x1 ![0, 1] Gen.bcast_S8x512_S8x512x1_0_1
          (Host.reduceAdd (F := Ideal) (expShifted L) (constant (F := Ideal) S_ .f32 0x00000000#32)
            Gen.reducesTo_S8x512x8_S8x512_d2 Gen.h_S_))))
    (sitofp .f32 M)

/-- The first region's result read as the four-axis array `sent`: the vector at `(b, s, k)` is row `row b s k`. -/
def sent : (⟨S8x512x8x1024, .f32⟩ : BufTy).Contents (Elt Ideal) :=
  shapeCast S8x512x8x1024 (W2 m ρ c (Proc.devRef .tc main_v4) : S32768x1024.Idx → EReal) Gen.shapeCasts_S32768x1024_S8x512x8x1024

theorem sent_apply (b : Fin 8) (s : Fin 512) (k : Fin 8) (h : Fin 1024) :
    sent m ρ c (ix4 b s k h) = (W2 m ρ c (Proc.devRef .tc main_v4) : S32768x1024.Idx → EReal) (ix2 (row b s k) h) := by
  unfold sent
  refine shapeCast_apply _ _ _ _ ?_
  show (S32768x1024.rowMajor (ix2 (row b s k) h)).val = (S8x512x8x1024.rowMajor (ix4 b s k h)).val
  rw [Shape.rowMajor_val_four, Shape.rowMajor_val_two]
  show (row b s k).val * 1024 + h.val = ((b.val * 512 + s.val) * 8 + k.val) * 1024 + h.val
  rw [row_val]

/-! ## What the second region finds -/

/-- Its first operand holds the rows of `sent` (the change of format in between is the identity). -/
theorem entry1_sent (b : Fin 8) (s : Fin 512) (k : Fin 8) (f : Fin 1024) :
    (V5 m ρ c main_v11 : S32768x1024.Idx → EReal) (ix2 (row b s k) f) = sent m ρ c (ix4 b s k f) := by
  have e : (V5 m ρ c main_v11 : S32768x1024.Idx → EReal) = (W2 m ρ c (Proc.devRef .tc main_v4) : S32768x1024.Idx → EReal) := by
    show StableHlo.after hostOps1_2 (StableHlo.after hostOps1_1 (StableHlo.after hostOps1 (W2 m ρ c))) (Proc.devRef .tc main_v11) = _
    after_results
    rfl
  rw [e, sent_apply]

/-- Its second operand holds the rows of `before sent`. -/
theorem entry1_before (b : Fin 8) (s : Fin 512) (k : Fin 8) (f : Fin 1024) :
    (V5 m ρ c main_v13 : S32768x1024.Idx → EReal) (ix2 (row b s k) f) = before (sent m ρ c) (ix4 b s k f) := by
  have e : (V5 m ρ c main_v13 : S32768x1024.Idx → EReal)
      = shapeCast S32768x1024 (before (sent m ρ c)) Gen.shapeCasts_S8x512x8x1024_S32768x1024 := by
    show StableHlo.after hostOps1_2 (StableHlo.after hostOps1_1 (StableHlo.after hostOps1 (W2 m ρ c))) (Proc.devRef .tc main_v13) = _
    after_results
    -- the transports along the called function's typed references are identities
    simp only [TRef.toBuf, TRef.ofBuf, cast_eq]
    unfold before sent
    rfl
  rw [e]
  refine shapeCast_apply _ _ _ _ ?_
  show (S8x512x8x1024.rowMajor (ix4 b s k f)).val = (S32768x1024.rowMajor (ix2 (row b s k) f)).val
  rw [Shape.rowMajor_val_four, Shape.rowMajor_val_two]
  show ((b.val * 512 + s.val) * 8 + k.val) * 1024 + f.val = (row b s k).val * 1024 + f.val
  rw [row_val]

/-- Its third operand is the upper half of `W2` (rows `0 … 1023`) … -/
theorem entry1_w2a (f h : Fin 1024) :
    (V5 m ρ c main_v15 : S1024x1024.Idx → EReal) (ix2 f h)
      = (m ((c : Thread nD τ).loc main_arg4) : S2048x1024.Idx → EReal) (ix2 (⟨f.val, by omega⟩ : Fin 2048) h) := by
  have e : (V5 m ρ c main_v15 : S1024x1024.Idx → EReal)
      = extractStridedSlice S1024x1024 ![0, 0] (m ((c : Thread nD τ).loc main_arg4) : S2048x1024.Idx → EReal) Gen.slices_S2048x1024_S1024x1024_0_0 := by
    show StableHlo.after hostOps1_2 (StableHlo.after hostOps1_1 (StableHlo.after hostOps1 (W2 m ρ c))) (Proc.devRef .tc main_v15) = _
    after_results
    rw [exit0_arg4]
    rfl
  rw [e]
  refine extractStridedSlice_apply _ _ _ _ _ fun a => ?_
  match a with
  | ⟨0, _⟩ => show f.val = 0 + f.val; omega
  | ⟨1, _⟩ => show h.val = 0 + h.val; omega

/-- … and its fourth the lower half (rows `1024 … 2047`). -/
theorem entry1_w2b (f h : Fin 1024) :
    (V5 m ρ c main_v17 : S1024x1024.Idx → EReal) (ix2 f h)
      = (m ((c : Thread nD τ).loc main_arg4) : S2048x1024.Idx → EReal) (ix2 (⟨1024 + f.val, by omega⟩ : Fin 2048) h) := by
  have e : (V5 m ρ c main_v17 : S1024x1024.Idx → EReal)
      = extractStridedSlice S1024x1024 ![1024, 0] (m ((c : Thread nD τ).loc main_arg4) : S2048x1024.Idx → EReal) Gen.slices_S2048x1024_S1024x1024_1024_0 := by
    show StableHlo.after hostOps1_2 (StableHlo.after hostOps1_1 (StableHlo.after hostOps1 (W2 m ρ c))) (Proc.devRef .tc main_v17) = _
    after_results
    rw [exit0_arg4]
    rfl
  rw [e]
  refine extractStridedSlice_apply _ _ _ _ _ fun a => ?_
  match a with
  | ⟨0, _⟩ => show 1024 + f.val = 1024 + f.val; rfl
  | ⟨1, _⟩ => show h.val = 0 + h.val; omega

/-- Its one-row operand is `b2`. -/
theorem entry1_b2 (h : Fin 1024) :
    (V5 m ρ c main_v18 : S1x1024.Idx → EReal) (ix2 (0 : Fin 1) h) = (m ((c : Thread nD τ).loc main_arg5) : S1024.Idx → EReal) (ix1 h) := by
  have e : (V5 m ρ c main_v18 : S1x1024.Idx → EReal)
      = shapeCast S1x1024 (m ((c : Thread nD τ).loc main_arg5) : S1024.Idx → EReal) Gen.shapeCasts_S1024_S1x1024 := by
    show StableHlo.after hostOps1_2 (StableHlo.after hostOps1_1 (StableHlo.after hostOps1 (W2 m ρ c))) (Proc.devRef .tc main_v18) = _
    after_results
    rw [exit0_arg5]
    rfl
  rw [e]
  refine shapeCast_apply _ _ _ _ ?_
  show (S1024.rowMajor (ix1 h)).val = (S1x1024.rowMajor (ix2 (0 : Fin 1) h)).val
  rw [Shape.rowMajor_val_one, Shape.rowMajor_val_two]
  show h.val = 0 * 1024 + h.val
  omega

/-- Its one-column operand is `W3`. -/
theorem entry1_w3 (h : Fin 1024) :
    (V5 m ρ c main_v19 : S1024x1.Idx → EReal) (ix2 h (0 : Fin 1)) = (m ((c : Thread nD τ).loc main_arg6) : S1024x1.Idx → EReal) (ix2 h (0 : Fin 1)) := by
  have e : (V5 m ρ c main_v19 : S1024x1.Idx → EReal) = (m ((c : Thread nD τ).loc main_arg6) : S1024x1.Idx → EReal) := by
    show StableHlo.after hostOps1_2 (StableHlo.after hostOps1_1 (StableHlo.after hostOps1 (W2 m ρ c))) (Proc.devRef .tc main_v19) = _
    after_results
    rw [exit0_arg6]
    rfl
  rw [e]

/-- Its one-entry operand is `b3`. -/
theorem entry1_b3 :
    (V5 m ρ c main_v20 : S1x1.Idx → EReal) (ix2 (0 : Fin 1) (0 : Fin 1)) = (m ((c : Thread nD τ).loc main_arg7) : S1.Idx → EReal) (ix1 (0 : Fin 1)) := by
  have e : (V5 m ρ c main_v20 : S1x1.Idx → EReal)
      = shapeCast S1x1 (m ((c : Thread nD τ).loc main_arg7) : S1.Idx → EReal) Gen.shapeCasts_S1_S1x1 := by
    show StableHlo.after hostOps1_2 (StableHlo.after hostOps1_1 (StableHlo.after hostOps1 (W2 m ρ c))) (Proc.devRef .tc main_v20) = _
    after_results
    rw [exit0_arg7]
    rfl
  rw [e]
  refine shapeCast_apply _ _ _ _ ?_
  show (S1.rowMajor (ix1 (0 : Fin 1))).val = (S1x1.rowMajor (ix2 (0 : Fin 1) (0 : Fin 1))).val
  rw [Shape.rowMajor_val_one, Shape.rowMajor_val_two]
  rfl

/-! ## After the second region -/

/-- The second region's result read as the [8, 512, 8] array of logits: the logit at `(b, s, k)` is row `row b s k`. -/
def logits : (⟨S8x512x8, .f32⟩ : BufTy).Contents (Elt Ideal) :=
  shapeCast S8x512x8 (W6 m ρ c (Proc.devRef .tc main_v21) : S32768x1.Idx → EReal) Gen.shapeCasts_S32768x1_S8x512x8

theorem logits_apply (b : Fin 8) (s : Fin 512) (k : Fin 8) :
    logits m ρ c (ix3 b s k) = (W6 m ρ c (Proc.devRef .tc main_v21) : S32768x1.Idx → EReal) (ix2 (row b s k) (0 : Fin 1)) := by
  unfold logits
  refine shapeCast_apply _ _ _ _ ?_
  show (S32768x1.rowMajor (ix2 (row b s k) (0 : Fin 1))).val = (S8x512x8.rowMajor (ix3 b s k)).val
  rw [Shape.rowMajor_val_three, Shape.rowMajor_val_two]
  show (row b s k).val * 1 + 0 = (b.val * 512 + s.val) * 8 + k.val
  rw [row_val]; omega

/-- At the second region's exit the mask is as launched. -/
theorem exit1_arg1 : W6 m ρ c (Proc.devRef .tc main_arg1) = m ((c : Thread nD τ).loc main_arg1) := by
  refine (W6_of_ne m ρ c main_arg1 (by decide)).trans ?_
  show StableHlo.after hostOps1_2 (StableHlo.after hostOps1_1 (StableHlo.after hostOps1 (W2 m ρ c))) (Proc.devRef .tc main_arg1) = _
  after_results
  exact exit0_arg1 m ρ c

/-- The program's result: the masked softmax of the logits. -/
theorem result_value :
    W7 m ρ c (Proc.devRef .tc main_v35) = softmaxMasked (logits m ρ c) (m ((c : Thread nD τ).loc main_arg1)) := by
  show StableHlo.after hostOps2 (W6 m ρ c) (Proc.devRef .tc main_v35) = _
  after_results_simp
  rw [exit1_arg1]
  rfl

end Cert.KernelIdeal.Glue

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.SentArray.lean ====
/-
  The first region's output array as one function of the arrays the region reads.

  The region runs over 32 grid points.  At point `t` its body reads a block of 1024 rows of a [32768, 3072]
  array `X` (rows `1024 t … 1024 t + 1023`), the whole of a [3072, 1024] array `W` and the whole of a one-row
  [1, 1024] array `B`, and stores the matrix product of the first two blocks, accumulated from zero, plus the row
  broadcast over the 1024 rows; the result is written back as rows `1024 t … 1024 t + 1023` of a [32768, 1024]
  array.  So the body's block has the entry `∑ f < 3072, x0[p, f] · x1[f, q] + x2[0, q]` at `(p, q)`, and since the 32
  row blocks tile the 32768 rows, the array after the run is `sent X W B`, the affine layer
  `(n, q) ↦ ∑ f < 3072, X[n, f] · W[f, q] + B[0, q]`, at every index.

  The steps: the product's operand indices at a result entry and a contraction position (`lhs_index`, `rhs_index`);
  one entry of the stored block (`block_entry`); the layer as a function and as an array (`sent`, `sentArr`) and a
  stored block as a block of that array (`block_eq`); the windows' block indices over the grid (`index_facts`) and
  each input block read off its array (`left_block`, `right_block`, `row_block`); what a point writes back
  (`flushed_eq`); the blocks' ranges and their cover of the array (`mem_block`, `cover`); the array after the run
  (`array_eq`, `sent_array`).  All values are extended reals.
-/
import proofs.«112848_j2010044694969_1_alg».proof.Proof.Gen.KernelIdeal.Frame
import proofs.«112848_j2010044694969_1_alg».proof.Proof.LibContract
import Idealize.ShloMosaic.Lib.ValueIdx
import Idealize.ShloMosaic.Lib.ValueLayout
import Idealize.ShloMosaic.Lib.Pipeline.Value

noncomputable section

namespace Cert.KernelIdeal.SentArray

open Idealize.ShloMosaic Idealize.ShloMosaic.ValueIdx Cert.KernelIdeal Cert.KernelIdeal.Gen
open Idealize.ShloMosaic.TcCoe Idealize.SL.Sem

/-! ## One entry of a block of the product -/

/-- The matrix product's left index keeps the result's row … -/
theorem lhs_row (j : S1024x1024.Idx) (k : dot_S1024x3072_S3072x1024_S1024x1024_1_0_0_1_n_n.contr.Idx) :
    (dot_S1024x3072_S3072x1024_S1024x1024_1_0_0_1_n_n.lhsIdx j k 0).val = (j 0).val := by
  unfold DotDims.lhsIdx
  rw [dif_neg (show ¬(0 : Fin S1024x3072.rank) ∈ dot_S1024x3072_S3072x1024_S1024x1024_1_0_0_1_n_n.lhsBatch by decide),
    dif_pos (show (0 : Fin S1024x3072.rank) ∈ dot_S1024x3072_S3072x1024_S1024x1024_1_0_0_1_n_n.lhsNonContracting by decide)]
  rfl

/-- … and runs along the contraction in its column; -/
theorem lhs_col (j : S1024x1024.Idx) (k : dot_S1024x3072_S3072x1024_S1024x1024_1_0_0_1_n_n.contr.Idx) :
    (dot_S1024x3072_S3072x1024_S1024x1024_1_0_0_1_n_n.lhsIdx j k 1).val = (k ⟨0, by decide⟩).val :=
  dot_S1024x3072_S3072x1024_S1024x1024_1_0_0_1_n_n.lhsIdx_val_of_single rfl j k

/-- the right index runs along the contraction in its row … -/
theorem rhs_row (j : S1024x1024.Idx) (k : dot_S1024x3072_S3072x1024_S1024x1024_1_0_0_1_n_n.contr.Idx) :
    (dot_S1024x3072_S3072x1024_S1024x1024_1_0_0_1_n_n.rhsIdx j k 0).val = (k ⟨0, by decide⟩).val :=
  dot_S1024x3072_S3072x1024_S1024x1024_1_0_0_1_n_n.rhsIdx_val_of_single rfl j k

/-- … and keeps the result's column. -/
theorem rhs_col (j : S1024x1024.Idx) (k : dot_S1024x3072_S3072x1024_S1024x1024_1_0_0_1_n_n.contr.Idx) :
    (dot_S1024x3072_S3072x1024_S1024x1024_1_0_0_1_n_n.rhsIdx j k 1).val = (j 1).val := by
  unfold DotDims.rhsIdx
  rw [dif_neg (show ¬(1 : Fin S3072x1024.rank) ∈ dot_S1024x3072_S3072x1024_S1024x1024_1_0_0_1_n_n.rhsBatch by decide),
    dif_pos (show (1 : Fin S3072x1024.rank) ∈ dot_S1024x3072_S3072x1024_S1024x1024_1_0_0_1_n_n.rhsNonContracting by decide)]
  rfl

/-- So for the result entry `(p, q)` and the contraction position `f` the left operand is read at `(p, f)` … -/
theorem lhs_index (p q : Fin 1024) (f : Fin 3072) :
    dot_S1024x3072_S3072x1024_S1024x1024_1_0_0_1_n_n.lhsIdx (ix2 p q)
        ((contrEquiv1 dot_S1024x3072_S3072x1024_S1024x1024_1_0_0_1_n_n 3072 rfl rfl).symm f) = ix2 p f :=
  funext fun a => Fin.ext (by
    match a with
    | ⟨0, _⟩ => exact lhs_row _ _
    | ⟨1, _⟩ => exact (lhs_col _ _).trans (contrEquiv1_symm_val dot_S1024x3072_S3072x1024_S1024x1024_1_0_0_1_n_n 3072 rfl rfl f))

/-- … and the right operand at `(f, q)`. -/
theorem rhs_index (p q : Fin 1024) (f : Fin 3072) :
    dot_S1024x3072_S3072x1024_S1024x1024_1_0_0_1_n_n.rhsIdx (ix2 p q)
        ((contrEquiv1 dot_S1024x3072_S3072x1024_S1024x1024_1_0_0_1_n_n 3072 rfl rfl).symm f) = ix2 f q :=
  funext fun a => Fin.ext (by
    match a with
    | ⟨0, _⟩ => exact (rhs_row _ _).trans (contrEquiv1_symm_val dot_S1024x3072_S3072x1024_S1024x1024_1_0_0_1_n_n 3072 rfl rfl f)
    | ⟨1, _⟩ => exact rhs_col _ _)

/-- Entry `(p, q)` of what the body stores: row `p` of the left block against column `q` of the right
    block, summed over the 3072 contraction positions, plus entry `q` of the one-row block.  (The two changes of
    shape in front of the product are to the same shape, and the row is broadcast down the 1024 rows.) -/
theorem block_entry (x0 : FVec Ideal S1024x3072 .bf16) (x1 : FVec Ideal S3072x1024 .bf16) (x2 : FVec Ideal S1x1024 .f32)
    (p q : Fin 1024) :
    (k0_pay1 (F := Ideal) x0 x1 x2 (ix2 p q) : EReal)
      = (∑ f : Fin 3072, (x0 (ix2 p f) : EReal) * (x1 (ix2 f q) : EReal)) + (x2 (ix2 (0 : Fin 1) q) : EReal) := by
  unfold k0_pay1
  show (addf (matmul dot_S1024x3072_S3072x1024_S1024x1024_1_0_0_1_n_n none
        (shapeCast S1024x3072 x0 shapeCasts_S1024x3072_S1024x3072) (shapeCast S3072x1024 x1 shapeCasts_S3072x1024_S3072x1024)
        (constant S1024x1024 .f32 0x00000000#32))
      (broadcastTo S1024x1024 (shapeCast S1x1024 x2 shapeCasts_S1x1024_S1x1024) broadcasts_S1x1024_S1024x1024) (ix2 p q) : EReal) = _
  rw [shapeCast_self, shapeCast_self, shapeCast_self, addf_apply, broadcastTo_1b_ab_apply]
  congr 1
  exact Cert.LibContract.matmul_zero_single dot_S1024x3072_S3072x1024_S1024x1024_1_0_0_1_n_n none 3072 rfl rfl x0 x1
    (ix2 p q) (fun f => ix2 p f) (fun f => ix2 f q) (lhs_index p q) (rhs_index p q)

/-! ## The layer, and a stored block as a block of it -/

/-- The affine layer at `(n, q)`: row `n` of `X` against column `q` of `W`, summed over the 3072 contraction
    positions, plus entry `q` of the one row `B`. -/
def sent (X : S32768x3072.Idx → EReal) (W : S3072x1024.Idx → EReal) (B : S1x1024.Idx → EReal)
    (n : Fin 32768) (q : Fin 1024) : EReal :=
  (∑ f : Fin 3072, X (ix2 n f) * W (ix2 f q)) + B (ix2 (0 : Fin 1) q)

/-- The layer as an array of shape [32768, 1024]. -/
def sentArr (X : S32768x3072.Idx → EReal) (W : S3072x1024.Idx → EReal) (B : S1x1024.Idx → EReal) :
    S32768x1024.Idx → EReal :=
  fun i => sent X W B ⟨(i 0).val, idx2_lt0 i⟩ ⟨(i 1).val, idx2_lt1 i⟩

/-- A stored block is a block of that array: when the left block holds the rows of `X` at which the block's
    rows sit in the array, the right block is `W` and the one-row block is `B`, what the body stores at the block
    entry `j` is the array's entry at the index `i` that `j` sits at (same column, `hcol`). -/
theorem block_eq (X : S32768x3072.Idx → EReal) (W : S3072x1024.Idx → EReal) (B : S1x1024.Idx → EReal)
    (x0 : FVec Ideal S1024x3072 .bf16) (x1 : FVec Ideal S3072x1024 .bf16) (x2 : FVec Ideal S1x1024 .f32)
    (j : S1024x1024.Idx) (i : S32768x1024.Idx)
    (hX : ∀ f : Fin 3072, (x0 (ix2 (⟨(j 0).val, idx2_lt0 j⟩ : Fin 1024) f) : EReal)
      = X (ix2 (⟨(i 0).val, idx2_lt0 i⟩ : Fin 32768) f))
    (hW : ∀ (f : Fin 3072) (q : Fin 1024), (x1 (ix2 f q) : EReal) = W (ix2 f q))
    (hB : ∀ q : Fin 1024, (x2 (ix2 (0 : Fin 1) q) : EReal) = B (ix2 (0 : Fin 1) q))
    (hcol : (i 1).val = (j 1).val) :
    (k0_pay1 (F := Ideal) x0 x1 x2 j : EReal) = sentArr X W B i := by
  obtain ⟨p, q, rfl⟩ : ∃ (p : Fin 1024) (q : Fin 1024), j = ix2 p q := ⟨j 0, j 1, eq_ix2 j⟩
  have hq : (⟨(i 1).val, idx2_lt1 i⟩ : Fin 1024) = q := Fin.ext hcol
  rw [block_entry]
  unfold sentArr sent
  rw [hq, hB q]
  congr 1
  exact Finset.sum_congr rfl fun f _ => by rw [hW f q]; exact congrArg (· * W (ix2 f q)) (hX f)

/-! ## The blocks at a grid point -/

/-- The windows' block indices, decided over the 32 grid points: the left and the output window move down
    the rows with the point, the other two windows stay at the one block they have. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The left window's block at point `t` holds rows `1024 t … 1024 t + 1023` of the array it reads: an element
    of a block sits, on each axis, at the block index times the block's extent plus its own coordinate. -/
theorem left_block (c : Dev nD) (t : Fin cfg0.N) (x : S1024x3072.Idx) (k : S32768x3072.Idx)
    (hk0 : (k 0).val = 1024 * t.val + (x 0).val) (hk1 : (k 1).val = (x 1).val) :
    (iblk0 V c 0 t : FVec Ideal S1024x3072 .bf16) x = (V c main_v1 : S32768x3072.Idx → EReal) k := by
  obtain ⟨e0, e1, -⟩ := index_facts t
  unfold iblk0
  rw [View.read_apply]
  show V c main_v1 _ = V c main_v1 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 3072 + 1 * (x 1).val = (k 1).val; rw [e1, hk1]; omega

/-- The right window's block at every point is the whole array it reads. -/
theorem right_block (c : Dev nD) (t : Fin cfg0.N) (x : S3072x1024.Idx) :
    (iblk0 V c 1 t : FVec Ideal S3072x1024 .bf16) x = (V c main_v2 : S3072x1024.Idx → EReal) x := by
  obtain ⟨-, -, e0, e1, -⟩ := index_facts t
  unfold iblk0
  rw [View.read_apply]
  show V c main_v2 _ = V c main_v2 _
  congr 1
  funext a
  apply Fin.ext
  match a with
  | ⟨0, _⟩ => show win0_1.index t (0 : Fin 2) * 3072 + 1 * (x 0).val = (x 0).val; rw [e0]; omega
  | ⟨1, _⟩ => show win0_1.index t (1 : Fin 2) * 1024 + 1 * (x 1).val = (x 1).val; rw [e1]; omega

/-- The one-row window's block at every point is the whole array it reads. -/
theorem row_block (c : Dev nD) (t : Fin cfg0.N) (x : S1x1024.Idx) :
    (iblk0 V c 2 t : FVec Ideal S1x1024 .f32) x = (V c main_v3 : S1x1024.Idx → EReal) x := by
  obtain ⟨-, -, -, -, e0, e1, -⟩ := index_facts t
  unfold iblk0
  rw [View.read_apply]
  show V c main_v3 _ = V c main_v3 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 1024 + 1 * (x 1).val = (x 1).val; rw [e1]; omega

/-- The body loads and stores whole blocks: through offsets that are all zero. -/
theorem zero_offsets : (![0, 0] : Fin 2 → Nat) = fun _ => 0 := funext fun a => by fin_cases a <;> rfl

/-- What point `t` writes back is block `t` of the layer of the arrays the region reads. -/
theorem flushed_eq (c : Dev nD) (t : Fin cfg0.N) :
    (dat0 (F := Ideal) V c).flushed 3 t
      = ((cfg0.win 3).blk t).view.read (Elt Ideal) (sentArr (V c main_v1) (V c main_v2) (V c main_v3)) := by
  show (cfg0.win 3).cut (grid0.coords t) ((dat0 V c).after 3 t) = _
  rw [after0_3]
  unfold out0_3
  rw [View.canon_unit_zero zero_offsets]
  simp only [View.ld_unit_zero (S := S1024x3072) zero_offsets, View.ld_unit_zero (S := S3072x1024) zero_offsets,
    View.ld_unit_zero (S := S1x1024) zero_offsets]
  obtain ⟨-, -, -, -, -, -, e0, e1⟩ := index_facts t
  funext j
  show (k0_pay1 (F := Ideal) (iblk0 V c 0 t) (iblk0 V c 1 t) (iblk0 V c 2 t) j : EReal)
    = sentArr (V c main_v1) (V c main_v2) (V c main_v3) (((cfg0.win 3).blk t).view.emb j)
  refine block_eq _ _ _ _ _ _ j _ (fun f => ?_) (fun f q => right_block V c t _) (fun q => row_block V c t _) ?_
  · refine left_block V c t _ _ ?_ rfl
    show win0_3.index t (0 : Fin 2) * 1024 + 1 * (j 0).val = 1024 * t.val + (j 0).val
    rw [e0]; omega
  · show win0_3.index t (1 : Fin 2) * 1024 + 1 * (j 1).val = (j 1).val
    rw [e1]; omega

/-! ## The blocks tile the array -/

/-- An index of the array is in point `t`'s block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- The 32 blocks of 1024 rows tile the 32768 rows: row `r` is in the block of point `r / 1024`, and every
    point writes its block back. -/
theorem cover (i : S32768x1024.Idx) :
    ∃ t : Fin cfg0.N, (cfg0.win 3).flush t = true ∧ i ∈ ((cfg0.win 3).blk t).view.set := by
  have hN : grid0.N = 32 := N_0
  have hi0 : (i 0).val < 32768 := idx2_lt0 i
  have hi1 : (i 1).val < 1024 := idx2_lt1 i
  obtain ⟨t, ht⟩ : ∃ t : Fin cfg0.N, t.val = (i 0).val / 1024 :=
    ⟨⟨(i 0).val / 1024, by show (i 0).val / 1024 < grid0.N; omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1]; omega

/-! ## The array after the run -/

/-- The array after the region's run is the layer of the arrays the region reads: every point writes back its
    block of it, and the blocks cover the array. -/
theorem array_eq (c : Dev nD) :
    (dat0 (F := Ideal) V c).arrAt 3 cfg0.N = sentArr (V c main_v1) (V c main_v2) (V c main_v3) :=
  (dat0 (F := Ideal) V c).arrAt_eq_of_cover 3 (sentArr (V c main_v1) (V c main_v2) (V c main_v3))
    (fun t _ => flushed_eq V c t) cover

/-- Its entry `(n, q)` is the layer at `(n, q)`. -/
theorem entry_eq_sent (c : Dev nD) (n : Fin 32768) (q : Fin 1024) :
    (dat0 (F := Ideal) V c).arrAt 3 cfg0.N (ix2 n q) = sent (V c main_v1) (V c main_v2) (V c main_v3) n q :=
  congrFun (array_eq V c) (ix2 n q)

/-- The same with the layer written out: entry `(n, q)` of the array the region leaves is row `n` of the array
    its first window reads against column `q` of the array its second window reads, summed over the 3072
    contraction positions, plus entry `q` of the one row its third window reads.  The products and the sums are
    the extended reals'. -/
theorem sent_array (c : Dev nD) (n : Fin 32768) (q : Fin 1024) :
    (dat0 (F := Ideal) V c).arrAt 3 cfg0.N (ix2 n q)
      = HAdd.hAdd (α := EReal) (β := EReal)
          (∑ f : Fin 3072, HMul.hMul (α := EReal) (β := EReal) (V c main_v1 (ix2 n f)) (V c main_v2 (ix2 f q)))
          (V c main_v3 (ix2 (0 : Fin 1) q)) :=
  entry_eq_sent V c n q

end Cert.KernelIdeal.SentArray

end
-- ==== Proof.LogitArray.lean ====
/-
  The second region's output array as one function of the region's input arrays.

  The region runs over 16 grid points. At point t it reads rows 2048 t … 2048 t + 2047 of two [32768, 1024] arrays
  S and P, and the whole of A, B ([1024, 1024]), b2 ([1, 1024]), w3 ([1024, 1]) and b3 ([1, 1]); it writes rows
  2048 t … 2048 t + 2047 of a [32768, 1] column. With s, p the two row blocks the stored column is

      max (s · A + p · B + b2, 0) · w3 + b3,

  each product taken into a zero accumulator, the biases repeated along the rows, the maximum entrywise. Read at one
  row this is a "logit": for row n of the arrays,

      ∑ h < 1024, max ((∑ f < 1024, S[n, f] · A[f, h]) + (∑ f < 1024, P[n, f] · B[f, h]) + b2[0, h], 0) · w3[h, 0] + b3[0, 0].

  The module proves this in four steps: the three matrix products read at an index; the stored column at an index
  (`payload_at`); what point t writes back is block t of the logit column of the whole arrays (`block_written`);
  the sixteen blocks tile the 32768 rows (`covered`), so the array after the run is the logit column
  (`array_eq`, `logit_array`); `logit_apply` writes a logit out.
-/
import proofs.«112848_j2010044694969_1_alg».proof.Proof.Gen.KernelIdeal.Frame
import proofs.«112848_j2010044694969_1_alg».proof.Proof.LibContract
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LogitArray

open Idealize.ShloMosaic Idealize.ShloMosaic.TcCoe Idealize.ShloMosaic.ValueIdx Cert.KernelIdeal Cert.KernelIdeal.Gen
open scoped BigOperators

/-! ## The two products' index maps

Both products contract the left operand's columns against the right operand's rows; the result's row comes from the
left operand and its column from the right one. -/

/-- Rows times a square matrix: the left operand is read at the result's row. -/
theorem square_lhs_row (j : S2048x1024.Idx) (q : dot_S2048x1024_S1024x1024_S2048x1024_1_0_0_1_n_n.contr.Idx) :
    (dot_S2048x1024_S1024x1024_S2048x1024_1_0_0_1_n_n.lhsIdx j q 0).val = (j 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- Rows times a square matrix: the right operand is read at the result's column. -/
theorem square_rhs_col (j : S2048x1024.Idx) (q : dot_S2048x1024_S1024x1024_S2048x1024_1_0_0_1_n_n.contr.Idx) :
    (dot_S2048x1024_S1024x1024_S2048x1024_1_0_0_1_n_n.rhsIdx j q 1).val = (j 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- Rows times one column: the left operand is read at the result's row. -/
theorem column_lhs_row (j : S2048x1.Idx) (q : dot_S2048x1024_S1024x1_S2048x1_1_0_0_1_n_n.contr.Idx) :
    (dot_S2048x1024_S1024x1_S2048x1_1_0_0_1_n_n.lhsIdx j q 0).val = (j 0).val := by
  unfold DotDims.lhsIdx
  rw [dif_neg (show ¬(0 : Fin S2048x1024.rank) ∈ dot_S2048x1024_S1024x1_S2048x1_1_0_0_1_n_n.lhsBatch by decide),
    dif_pos (show (0 : Fin S2048x1024.rank) ∈ dot_S2048x1024_S1024x1_S2048x1_1_0_0_1_n_n.lhsNonContracting by decide)]
  rfl

/-- Rows times one column: the right operand is read at the result's one column. -/
theorem column_rhs_col (j : S2048x1.Idx) (q : dot_S2048x1024_S1024x1_S2048x1_1_0_0_1_n_n.contr.Idx) :
    (dot_S2048x1024_S1024x1_S2048x1_1_0_0_1_n_n.rhsIdx j q 1).val = (j 1).val := by
  unfold DotDims.rhsIdx
  rw [dif_neg (show ¬(1 : Fin S1024x1.rank) ∈ dot_S2048x1024_S1024x1_S2048x1_1_0_0_1_n_n.rhsBatch by decide),
    dif_pos (show (1 : Fin S1024x1.rank) ∈ dot_S2048x1024_S1024x1_S2048x1_1_0_0_1_n_n.rhsNonContracting by decide)]
  rfl

/-- A block of rows times a square matrix, into the zero accumulator: entry (p, h) is the row p of the left
    operand against the column h of the right one. -/
theorem rows_mul_square (x : FVec Ideal S2048x1024 .bf16) (w : FVec Ideal S1024x1024 .bf16) (p : Fin 2048) (h : Fin 1024) :
    matmul dot_S2048x1024_S1024x1024_S2048x1024_1_0_0_1_n_n none x w (constant S2048x1024 .f32 0x00000000#32) (ix2 p h)
      = ∑ f : Fin 1024, x (ix2 p f) * w (ix2 f h) := by
  refine Cert.LibContract.matmul_zero_single dot_S2048x1024_S1024x1024_S2048x1024_1_0_0_1_n_n none 1024 rfl rfl x w
    (ix2 p h) (fun f => ix2 p f) (fun f => ix2 f h) (fun k => ?_) (fun k => ?_)
  · have hk := contrEquiv1_symm_val dot_S2048x1024_S1024x1024_S2048x1024_1_0_0_1_n_n 1024 rfl rfl k
    funext a; apply Fin.ext
    match a with
    | ⟨0, _⟩ => exact square_lhs_row _ _
    | ⟨1, _⟩ => exact (dot_S2048x1024_S1024x1024_S2048x1024_1_0_0_1_n_n.lhsIdx_val_of_single rfl _ _).trans hk
  · have hk := contrEquiv1_symm_val dot_S2048x1024_S1024x1024_S2048x1024_1_0_0_1_n_n 1024 rfl rfl k
    funext a; apply Fin.ext
    match a with
    | ⟨0, _⟩ => exact (dot_S2048x1024_S1024x1024_S2048x1024_1_0_0_1_n_n.rhsIdx_val_of_single rfl _ _).trans hk
    | ⟨1, _⟩ => exact square_rhs_col _ _

/-- A block of rows times one column, into the zero accumulator: entry (p, 0) is the row p against the column. -/
theorem rows_mul_column (x : FVec Ideal S2048x1024 .bf16) (w : FVec Ideal S1024x1 .bf16) (p : Fin 2048) :
    matmul dot_S2048x1024_S1024x1_S2048x1_1_0_0_1_n_n none x w (constant S2048x1 .f32 0x00000000#32) (ix2 p (0 : Fin 1))
      = ∑ h : Fin 1024, x (ix2 p h) * w (ix2 h (0 : Fin 1)) := by
  refine Cert.LibContract.matmul_zero_single dot_S2048x1024_S1024x1_S2048x1_1_0_0_1_n_n none 1024 rfl rfl x w
    (ix2 p (0 : Fin 1)) (fun h => ix2 p h) (fun h => ix2 h (0 : Fin 1)) (fun k => ?_) (fun k => ?_)
  · have hk := contrEquiv1_symm_val dot_S2048x1024_S1024x1_S2048x1_1_0_0_1_n_n 1024 rfl rfl k
    funext a; apply Fin.ext
    match a with
    | ⟨0, _⟩ => exact column_lhs_row _ _
    | ⟨1, _⟩ => exact (dot_S2048x1024_S1024x1_S2048x1_1_0_0_1_n_n.lhsIdx_val_of_single rfl _ _).trans hk
  · have hk := contrEquiv1_symm_val dot_S2048x1024_S1024x1_S2048x1_1_0_0_1_n_n 1024 rfl rfl k
    funext a; apply Fin.ext
    match a with
    | ⟨0, _⟩ => exact (dot_S2048x1024_S1024x1_S2048x1_1_0_0_1_n_n.rhsIdx_val_of_single rfl _ _).trans hk
    | ⟨1, _⟩ => exact column_rhs_col _ _

/-- The body's stored value with the identity casts removed. -/
theorem payload_eq (x0 x1 : FVec Ideal S2048x1024 .bf16) (x2 x3 : FVec Ideal S1024x1024 .bf16) (x4 : FVec Ideal S1x1024 .f32)
    (x5 : FVec Ideal S1024x1 .bf16) (x6 : FVec Ideal S1x1 .f32) :
    k1_pay1 (F := Ideal) x0 x1 x2 x3 x4 x5 x6
      = addf (matmul dot_S2048x1024_S1024x1_S2048x1_1_0_0_1_n_n none
            (truncf .bf16 (maximumf
              (addf (addf (matmul dot_S2048x1024_S1024x1024_S2048x1024_1_0_0_1_n_n none x0 x2 (constant S2048x1024 .f32 0x00000000#32))
                          (matmul dot_S2048x1024_S1024x1024_S2048x1024_1_0_0_1_n_n none x1 x3 (constant S2048x1024 .f32 0x00000000#32)))
                    (broadcastTo S2048x1024 x4 broadcasts_S1x1024_S2048x1024))
              (broadcast S2048x1024 (Scalar.ofBits (F := Ideal) .f32 0x00000000#32))) bitsLt_bf16_f32)
            x5 (constant S2048x1 .f32 0x00000000#32))
          (broadcastTo S2048x1 x6 broadcasts_S1x1_S2048x1) := by
  unfold k1_pay1
  simp only [shapeCast_self]

/-! ## One logit from one row of each row array -/

/-- The head of the network on one row: the hidden unit h is the rectified sum of the row s against column h of A,
    the row p against column h of B, and the bias b2 at h; the logit is the hidden row against the column w3, plus
    the bias b3. -/
def logitOf (s p : Fin 1024 → EReal) (A B : S1024x1024.Idx → EReal) (b2 : S1x1024.Idx → EReal)
    (w3 : S1024x1.Idx → EReal) (b3 : S1x1.Idx → EReal) : EReal :=
  (∑ h : Fin 1024, max ((∑ f : Fin 1024, s f * A (ix2 f h)) + (∑ f : Fin 1024, p f * B (ix2 f h)) + b2 (ix2 (0 : Fin 1) h))
      (Ideal.ofBits .f32 0x00000000#32) * w3 (ix2 h (0 : Fin 1))) + b3 (ix2 (0 : Fin 1) (0 : Fin 1))

/-- The body's stored column at row p of the block: the logit of row p of the two row blocks. -/
theorem payload_at (x0 x1 : FVec Ideal S2048x1024 .bf16) (x2 x3 : FVec Ideal S1024x1024 .bf16) (x4 : FVec Ideal S1x1024 .f32)
    (x5 : FVec Ideal S1024x1 .bf16) (x6 : FVec Ideal S1x1 .f32) (p : Fin 2048) :
    k1_pay1 (F := Ideal) x0 x1 x2 x3 x4 x5 x6 (ix2 p (0 : Fin 1))
      = logitOf (fun f => x0 (ix2 p f)) (fun f => x1 (ix2 p f)) x2 x3 x4 x5 x6 := by
  rw [payload_eq, addf_apply, rows_mul_column, broadcastTo_1b_ab_apply]
  unfold logitOf
  refine congrArg (· + x6 (ix2 (0 : Fin 1) (0 : Fin 1))) (Finset.sum_congr rfl fun h _ => ?_)
  rw [truncf_apply, maximumf_apply, addf_apply, addf_apply, rows_mul_square, rows_mul_square, broadcastTo_1b_ab_apply,
    broadcast_apply]
  rfl

/-! ## The output array as one function of the region's seven input arrays -/

/-- The logit of row n of the two row arrays S and P. -/
def logit (S P : S32768x1024.Idx → EReal) (A B : S1024x1024.Idx → EReal) (b2 : S1x1024.Idx → EReal)
    (w3 : S1024x1.Idx → EReal) (b3 : S1x1.Idx → EReal) (n : Fin 32768) : EReal :=
  logitOf (fun f => S (ix2 n f)) (fun f => P (ix2 n f)) A B b2 w3 b3

/-- Written out: the rectified hidden layer of rows n of S and P against the column w3, plus the bias b3. -/
theorem logit_apply (S P : S32768x1024.Idx → EReal) (A B : S1024x1024.Idx → EReal) (b2 : S1x1024.Idx → EReal)
    (w3 : S1024x1.Idx → EReal) (b3 : S1x1.Idx → EReal) (n : Fin 32768) :
    logit S P A B b2 w3 b3 n
      = (∑ h : Fin 1024, max ((∑ f : Fin 1024, S (ix2 n f) * A (ix2 f h)) + (∑ f : Fin 1024, P (ix2 n f) * B (ix2 f h))
            + b2 (ix2 (0 : Fin 1) h)) (Ideal.ofBits .f32 0x00000000#32) * w3 (ix2 h (0 : Fin 1)))
          + b3 (ix2 (0 : Fin 1) (0 : Fin 1)) := rfl

/-- The whole output column: row i is the logit of row i. -/
def logitArr (S P : S32768x1024.Idx → EReal) (A B : S1024x1024.Idx → EReal) (b2 : S1x1024.Idx → EReal)
    (w3 : S1024x1.Idx → EReal) (b3 : S1x1.Idx → EReal) : S32768x1.Idx → EReal :=
  fun i => logit S P A B b2 w3 b3 ⟨(i 0).val, idx2_lt0 i⟩

/-- The offsets of a whole-buffer access are zero on both axes. -/
theorem zero_offsets : (![0, 0] : Fin 2 → Nat) = fun _ => 0 := funext fun a => by fin_cases a <;> rfl

/-- The printed index maps, decided over the 16 points: the two row windows and the output window sit at block
    (t, 0), the five whole-array windows at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- The first row window's block at point t is rows 2048 t … 2048 t + 2047 of its array. -/
theorem rows0_apply (y : S2048x1024.Idx) (k : S32768x1024.Idx)
    (hk0 : (k 0).val = 2048 * t.val + (y 0).val) (hk1 : (k 1).val = (y 1).val) :
    (iblk1 V c 0 t : Vec Ideal S2048x1024 .bf16) y = (V c main_v11 : S32768x1024.Idx → EReal) k := by
  obtain ⟨e0, e1, -⟩ := index_facts t
  unfold iblk1
  rw [View.read_apply]
  show V c main_v11 _ = V c main_v11 _
  congr 1
  funext a
  apply Fin.ext
  match a with
  | ⟨0, _⟩ => show win1_0.index t 0 * 2048 + 1 * (y 0).val = (k 0).val; rw [e0, hk0]; omega
  | ⟨1, _⟩ => show win1_0.index t 1 * 1024 + 1 * (y 1).val = (k 1).val; rw [e1, hk1]; omega

/-- The second row window's block at point t is the same rows of its array. -/
theorem rows1_apply (y : S2048x1024.Idx) (k : S32768x1024.Idx)
    (hk0 : (k 0).val = 2048 * t.val + (y 0).val) (hk1 : (k 1).val = (y 1).val) :
    (iblk1 V c 1 t : Vec Ideal S2048x1024 .bf16) y = (V c main_v13 : S32768x1024.Idx → EReal) k := by
  obtain ⟨-, -, e0, e1, -⟩ := index_facts t
  unfold iblk1
  rw [View.read_apply]
  show V c main_v13 _ = V c main_v13 _
  congr 1
  funext a
  apply Fin.ext
  match a with
  | ⟨0, _⟩ => show win1_1.index t 0 * 2048 + 1 * (y 0).val = (k 0).val; rw [e0, hk0]; omega
  | ⟨1, _⟩ => show win1_1.index t 1 * 1024 + 1 * (y 1).val = (k 1).val; rw [e1, hk1]; omega

/-- The five remaining windows hold their whole arrays at every point. -/
theorem whole2 : (iblk1 V c 2 t : Vec Ideal S1024x1024 .bf16) = (V c main_v15 : S1024x1024.Idx → EReal) := by
  obtain ⟨-, -, -, -, e0, e1, -⟩ := index_facts t
  funext y
  unfold iblk1
  rw [View.read_apply]
  show V c main_v15 _ = V c main_v15 _
  congr 1
  funext a
  apply Fin.ext
  match a with
  | ⟨0, _⟩ => show win1_2.index t 0 * 1024 + 1 * (y 0).val = (y 0).val; rw [e0]; omega
  | ⟨1, _⟩ => show win1_2.index t 1 * 1024 + 1 * (y 1).val = (y 1).val; rw [e1]; omega

theorem whole3 : (iblk1 V c 3 t : Vec Ideal S1024x1024 .bf16) = (V c main_v17 : S1024x1024.Idx → EReal) := by
  obtain ⟨-, -, -, -, -, -, e0, e1, -⟩ := index_facts t
  funext y
  unfold iblk1
  rw [View.read_apply]
  show V c main_v17 _ = V c main_v17 _
  congr 1
  funext a
  apply Fin.ext
  match a with
  | ⟨0, _⟩ => show win1_3.index t 0 * 1024 + 1 * (y 0).val = (y 0).val; rw [e0]; omega
  | ⟨1, _⟩ => show win1_3.index t 1 * 1024 + 1 * (y 1).val = (y 1).val; rw [e1]; omega

theorem whole4 : (iblk1 V c 4 t : Vec Ideal S1x1024 .f32) = (V c main_v18 : S1x1024.Idx → EReal) := by
  obtain ⟨-, -, -, -, -, -, -, -, e0, e1, -⟩ := index_facts t
  funext y
  unfold iblk1
  rw [View.read_apply]
  show V c main_v18 _ = V c main_v18 _
  congr 1
  funext a
  apply Fin.ext
  match a with
  | ⟨0, _⟩ => show win1_4.index t 0 * 1 + 1 * (y 0).val = (y 0).val; rw [e0]; omega
  | ⟨1, _⟩ => show win1_4.index t 1 * 1024 + 1 * (y 1).val = (y 1).val; rw [e1]; omega

theorem whole5 : (iblk1 V c 5 t : Vec Ideal S1024x1 .bf16) = (V c main_v19 : S1024x1.Idx → EReal) := by
  obtain ⟨-, -, -, -, -, -, -, -, -, -, e0, e1, -⟩ := index_facts t
  funext y
  unfold iblk1
  rw [View.read_apply]
  show V c main_v19 _ = V c main_v19 _
  congr 1
  funext a
  apply Fin.ext
  match a with
  | ⟨0, _⟩ => show win1_5.index t 0 * 1024 + 1 * (y 0).val = (y 0).val; rw [e0]; omega
  | ⟨1, _⟩ => show win1_5.index t 1 * 1 + 1 * (y 1).val = (y 1).val; rw [e1]; omega

theorem whole6 : (iblk1 V c 6 t : Vec Ideal S1x1 .f32) = (V c main_v20 : S1x1.Idx → EReal) := by
  obtain ⟨-, -, -, -, -, -, -, -, -, -, -, -, e0, e1, -⟩ := index_facts t
  funext y
  unfold iblk1
  rw [View.read_apply]
  show V c main_v20 _ = V c main_v20 _
  congr 1
  funext a
  apply Fin.ext
  match a with
  | ⟨0, _⟩ => show win1_6.index t 0 * 1 + 1 * (y 0).val = (y 0).val; rw [e0]; omega
  | ⟨1, _⟩ => show win1_6.index t 1 * 1 + 1 * (y 1).val = (y 1).val; rw [e1]; omega

/-- The stored column at any index of the block: a [2048, 1] index is (p, 0). -/
theorem payload_apply (x0 x1 : FVec Ideal S2048x1024 .bf16) (x2 x3 : FVec Ideal S1024x1024 .bf16) (x4 : FVec Ideal S1x1024 .f32)
    (x5 : FVec Ideal S1024x1 .bf16) (x6 : FVec Ideal S1x1 .f32) (y : S2048x1.Idx) :
    k1_pay1 (F := Ideal) x0 x1 x2 x3 x4 x5 x6 y
      = logitOf (fun f => x0 (ix2 ⟨(y 0).val, idx2_lt0 y⟩ f)) (fun f => x1 (ix2 ⟨(y 0).val, idx2_lt0 y⟩ f)) x2 x3 x4 x5 x6 := by
  obtain ⟨p, q, rfl⟩ : ∃ (p : Fin 2048) (q : Fin 1), y = ix2 p q := ⟨y 0, y 1, eq_ix2 y⟩
  obtain rfl : q = 0 := Subsingleton.elim _ _
  exact payload_at x0 x1 x2 x3 x4 x5 x6 p

/-- What point t writes back is block t of the logit column of the arrays as the region finds them. -/
theorem block_written :
    (dat1 (F := Ideal) V c).flushed 7 t = ((cfg1.win 7).blk t).view.read (Elt Ideal)
      (logitArr (V c main_v11) (V c main_v13) (V c main_v15) (V c main_v17) (V c main_v18) (V c main_v19) (V c main_v20)) := by
  show (cfg1.win 7).cut (grid1.coords t) ((dat1 V c).after 7 t) = _
  rw [after1_7]
  unfold out1_7
  rw [View.canon_unit_zero zero_offsets]
  simp only [View.ld_unit_zero (S := S2048x1024) zero_offsets, View.ld_unit_zero (S := S1024x1024) zero_offsets, View.ld_unit_zero (S := S1x1024) zero_offsets,
    View.ld_unit_zero (S := S1024x1) zero_offsets, View.ld_unit_zero (S := S1x1) zero_offsets]
  rw [whole2 V c t, whole3 V c t, whole4 V c t, whole5 V c t, whole6 V c t]
  obtain ⟨-, -, -, -, -, -, -, -, -, -, -, -, -, -, e0, -⟩ := index_facts t
  funext j
  refine (payload_apply _ _ _ _ _ _ _ j).trans ?_
  show _ = logitArr _ _ _ _ _ _ _ (((cfg1.win 7).blk t).view.emb j)
  unfold logitArr logit
  have hrow : ((((cfg1.win 7).blk t).view.emb j) 0).val = 2048 * t.val + (j 0).val := by
    show win1_7.index t 0 * 2048 + 1 * (j 0).val = 2048 * t.val + (j 0).val
    rw [e0]; omega
  congr 1
  · funext f
    exact rows0_apply V c t _ _ hrow rfl
  · funext f
    exact rows1_apply V c t _ _ hrow rfl

end Blocks

/-! ## The sixteen blocks tile the rows -/

/-- An index of the output array is in point t's block iff each coordinate is in the block's range on its axis. -/
theorem mem_block (t : Fin cfg1.N) (i : S32768x1.Idx) :
    i ∈ ((cfg1.win 7).blk t).view.set ↔ ∀ a : Fin 2, win1_7.index t a * S2048x1.size a ≤ (i a).val
      ∧ (i a).val < win1_7.index t a * S2048x1.size a + S2048x1.size a := by
  show i ∈ ((View.whole main_v21).slice (win1_7.rect t)).set ↔ _
  rw [View.set_slice_whole, Rect.mem_set_unit]
  exact Iff.rfl

/-- Row r lies in the block of point r / 2048, which writes back. -/
theorem covered (i : S32768x1.Idx) :
    ∃ t : Fin cfg1.N, (cfg1.win 7).flush t = true ∧ i ∈ ((cfg1.win 7).blk t).view.set := by
  have hi0 : (i 0).val < 32768 := idx2_lt0 i
  have hi1 : (i 1).val < 1 := idx2_lt1 i
  have hN : grid1.N = 16 := N_1
  have ht : (i 0).val / 2048 < cfg1.N := by show _ < grid1.N; omega
  obtain ⟨-, -, -, -, -, -, -, -, -, -, -, -, -, -, e0, e1⟩ := index_facts ⟨(i 0).val / 2048, ht⟩
  refine ⟨⟨(i 0).val / 2048, ht⟩, flush1_7 _, ?_⟩
  rw [mem_block]
  intro a
  match a with
  | ⟨0, _⟩ =>
    show win1_7.index ⟨(i 0).val / 2048, ht⟩ 0 * 2048 ≤ (i 0).val ∧ (i 0).val < win1_7.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win1_7.index ⟨(i 0).val / 2048, ht⟩ 1 * 1 ≤ (i 1).val ∧ (i 1).val < win1_7.index ⟨(i 0).val / 2048, ht⟩ 1 * 1 + 1
    rw [e1]; omega

/-! ## The array after the run -/

section Array
variable (V : (c : Dev nD) → (b : Ref sig .tc) → Buf (Elt Ideal) ((c : Thread nD τ).loc b)) (c : Dev nD)

/-- After the sixteen write-backs the output array is the logit column of the region's input arrays. -/
theorem array_eq : (dat1 (F := Ideal) V c).arrAt 7 cfg1.N
      = logitArr (V c main_v11) (V c main_v13) (V c main_v15) (V c main_v17) (V c main_v18) (V c main_v19) (V c main_v20) :=
  (dat1 (F := Ideal) V c).arrAt_eq_of_cover 7 _ (fun t _ => block_written V c t) covered

/-- Row n of the output array is the logit of rows n of the region's two row arrays. -/
theorem logit_array (n : Fin 32768) :
    (dat1 (F := Ideal) V c).arrAt 7 cfg1.N (ix2 n (0 : Fin 1))
      = logit (V c main_v11) (V c main_v13) (V c main_v15) (V c main_v17) (V c main_v18) (V c main_v19) (V c main_v20) n := by
  rw [array_eq]
  rfl

end Array

end Cert.KernelIdeal.LogitArray

end
-- ==== Proof.KernelPointwise.lean ====
/-
  The idealized kernel's two intermediate arrays, read at an index in terms of the arguments.

  `sent` at `(b, s, k, h)` is the vector of `x` at `(b, s, k)` against column `h` of `W1`, plus `b1` at `h`: the first
  region leaves, in row `row b s k` of its result, the affine layer of the rows it was given, and those rows are `x`
  reshaped.  The logit at `(b, s, k)` is the rectified hidden layer against `W3`, plus `b3`, where hidden unit `h` is the
  vector of `sent` at `(b, s, k)` against column `h` of the upper half of `W2`, plus the vector of `before sent` at
  `(b, s, k)` against column `h` of the lower half, plus `b2` at `h`: the second region leaves, in row `row b s k`, the
  logit of the two rows it was given, and those are the rows of `sent` and of `before sent`.
-/
import proofs.«112848_j2010044694969_1_alg».proof.Proof.HostGlue
import proofs.«112848_j2010044694969_1_alg».proof.Proof.SentArray
import proofs.«112848_j2010044694969_1_alg».proof.Proof.LogitArray

noncomputable section

namespace Cert.KernelIdeal.Pointwise

open Cert.KernelIdeal Cert.KernelIdeal.Gen
open Idealize.ShloMosaic Idealize.ShloMosaic.ValueIdx Idealize.ShloMosaic.TcCoe Idealize.SL.Sem

/-! ## The two layers as functions of arrays of extended reals -/

/-- The first layer at `(b, s, k, h)`: `∑ f < 3072, X[b, s, k, f] · W[f, h] + B[h]`. -/
def layer1 (X : S8x512x8x3072.Idx → EReal) (W : S3072x1024.Idx → EReal) (B : S1024.Idx → EReal)
    (b : Fin 8) (s : Fin 512) (k : Fin 8) (h : Fin 1024) : EReal :=
  (∑ f : Fin 3072, X (ix4 b s k f) * W (ix2 f h)) + B (ix1 h)

/-- The head at `(b, s, k)`: hidden unit `h` is `max (∑ f < 1024, S[b, s, k, f] · W2[f, h] + ∑ f < 1024, P[b, s, k, f] ·
    W2[1024 + f, h] + B2[h], 0)`, and the logit is `∑ h < 1024, hidden h · W3[h, 0] + B3[0]`. -/
def head (S P : S8x512x8x1024.Idx → EReal) (W2 : S2048x1024.Idx → EReal) (B2 : S1024.Idx → EReal)
    (W3 : S1024x1.Idx → EReal) (B3 : S1.Idx → EReal) (b : Fin 8) (s : Fin 512) (k : Fin 8) : EReal :=
  (∑ h : Fin 1024,
      max ((∑ f : Fin 1024, S (ix4 b s k f) * W2 (ix2 (⟨f.val, by omega⟩ : Fin 2048) h))
          + (∑ f : Fin 1024, P (ix4 b s k f) * W2 (ix2 (⟨1024 + f.val, by omega⟩ : Fin 2048) h))
          + B2 (ix1 h))
        (Ideal.ofBits .f32 0x00000000#32)
      * W3 (ix2 h (0 : Fin 1)))
    + B3 (ix1 (0 : Fin 1))

/-- A row of the first region's affine layer is the first layer at `(b, s, k)`, when the region's left rows are `X`
    reshaped and its other two inputs are `W` and `B` as a row. -/
theorem layer1_of_rows (X2 : S32768x3072.Idx → EReal) (Wm : S3072x1024.Idx → EReal) (Br : S1x1024.Idx → EReal)
    (X : S8x512x8x3072.Idx → EReal) (W : S3072x1024.Idx → EReal) (B : S1024.Idx → EReal)
    (n : Fin 32768) (b : Fin 8) (s : Fin 512) (k : Fin 8) (h : Fin 1024)
    (hX : ∀ f : Fin 3072, X2 (ix2 n f) = X (ix4 b s k f)) (hW : ∀ f : Fin 3072, Wm (ix2 f h) = W (ix2 f h))
    (hB : Br (ix2 (0 : Fin 1) h) = B (ix1 h)) :
    SentArray.sent X2 Wm Br n h = layer1 X W B b s k h := by
  unfold SentArray.sent layer1
  rw [hB]
  exact congrArg (· + B (ix1 h)) (Finset.sum_congr rfl fun f _ => by rw [hX f, hW f])

/-- A row of the second region's logit column is the head at `(b, s, k)`, when the region's two row arrays hold the
    rows of `S` and `P`, its two square inputs are the halves of `W2`, and its three small inputs are `B2`, `W3`, `B3`. -/
theorem head_of_rows (S2 P2 : S32768x1024.Idx → EReal) (A Bm : S1024x1024.Idx → EReal) (b2 : S1x1024.Idx → EReal)
    (w3 : S1024x1.Idx → EReal) (b3 : S1x1.Idx → EReal)
    (S P : S8x512x8x1024.Idx → EReal) (W2 : S2048x1024.Idx → EReal) (B2 : S1024.Idx → EReal)
    (W3 : S1024x1.Idx → EReal) (B3 : S1.Idx → EReal)
    (n : Fin 32768) (b : Fin 8) (s : Fin 512) (k : Fin 8)
    (hS : ∀ f : Fin 1024, S2 (ix2 n f) = S (ix4 b s k f)) (hP : ∀ f : Fin 1024, P2 (ix2 n f) = P (ix4 b s k f))
    (hA : ∀ f h : Fin 1024, A (ix2 f h) = W2 (ix2 (⟨f.val, by omega⟩ : Fin 2048) h))
    (hB : ∀ f h : Fin 1024, Bm (ix2 f h) = W2 (ix2 (⟨1024 + f.val, by omega⟩ : Fin 2048) h))
    (hb2 : ∀ h : Fin 1024, b2 (ix2 (0 : Fin 1) h) = B2 (ix1 h))
    (hw3 : ∀ h : Fin 1024, w3 (ix2 h (0 : Fin 1)) = W3 (ix2 h (0 : Fin 1)))
    (hb3 : b3 (ix2 (0 : Fin 1) (0 : Fin 1)) = B3 (ix1 (0 : Fin 1))) :
    LogitArray.logit S2 P2 A Bm b2 w3 b3 n = head S P W2 B2 W3 B3 b s k := by
  rw [LogitArray.logit_apply]
  unfold head
  rw [hb3]
  refine congrArg (· + B3 (ix1 (0 : Fin 1))) (Finset.sum_congr rfl fun h _ => ?_)
  rw [hw3 h, hb2 h]
  have e1 : (∑ f : Fin 1024, S2 (ix2 n f) * A (ix2 f h))
      = ∑ f : Fin 1024, S (ix4 b s k f) * W2 (ix2 (⟨f.val, by omega⟩ : Fin 2048) h) :=
    Finset.sum_congr rfl fun f _ => by rw [hS f, hA f h]
  have e2 : (∑ f : Fin 1024, P2 (ix2 n f) * Bm (ix2 f h))
      = ∑ f : Fin 1024, P (ix4 b s k f) * W2 (ix2 (⟨1024 + f.val, by omega⟩ : Fin 2048) h) :=
    Finset.sum_congr rfl fun f _ => by rw [hP f, hB f h]
  rw [e1, e2]

/-! ## The kernel's `sent` and logits -/

variable (m : (ℓ : Loc nD τ sig) → Buf (Elt Ideal) ℓ) (ρ : Dev nD → PrngReg) (c : Dev nD)

/-- `sent` at `(b, s, k, h)` is the first layer of the arguments `x`, `W1`, `b1`. -/
theorem sent_at (b : Fin 8) (s : Fin 512) (k : Fin 8) (h : Fin 1024) :
    (Glue.sent m ρ c : S8x512x8x1024.Idx → EReal) (ix4 b s k h)
      = layer1 (m ((c : Thread nD τ).loc main_arg0)) (m ((c : Thread nD τ).loc main_arg2)) (m ((c : Thread nD τ).loc main_arg3))
          b s k h := by
  rw [Glue.sent_apply]
  rw [show (W2 m ρ c (Proc.devRef .tc main_v4) : S32768x1024.Idx → EReal)
        = (dat0 (F := Ideal) (V1 m ρ) c).arrAt 3 cfg0.N from W2_arr m ρ c 3]
  rw [SentArray.entry_eq_sent]
  exact layer1_of_rows _ _ _ _ _ _ (Glue.row b s k) b s k h (fun f => Glue.entry0_x m ρ c b s k f)
    (fun f => Glue.entry0_w m ρ c f h) (Glue.entry0_b m ρ c h)

/-- The logit at `(b, s, k)` is the head of `sent`, `before sent` and the arguments `W2`, `b2`, `W3`, `b3`. -/
theorem logit_at (b : Fin 8) (s : Fin 512) (k : Fin 8) :
    (Glue.logits m ρ c : S8x512x8.Idx → EReal) (ix3 b s k)
      = head (Glue.sent m ρ c) (Glue.before (Glue.sent m ρ c)) (m ((c : Thread nD τ).loc main_arg4))
          (m ((c : Thread nD τ).loc main_arg5)) (m ((c : Thread nD τ).loc main_arg6)) (m ((c : Thread nD τ).loc main_arg7))
          b s k := by
  rw [Glue.logits_apply]
  rw [show (W6 m ρ c (Proc.devRef .tc main_v21) : S32768x1.Idx → EReal)
        = (dat1 (F := Ideal) (V5 m ρ) c).arrAt 7 cfg1.N from W6_arr m ρ c 7]
  rw [LogitArray.logit_array]
  exact head_of_rows _ _ _ _ _ _ _ _ _ _ _ _ _ (Glue.row b s k) b s k
    (fun f => Glue.entry1_sent m ρ c b s k f) (fun f => Glue.entry1_before m ρ c b s k f)
    (fun f h => Glue.entry1_w2a m ρ c f h) (fun f h => Glue.entry1_w2b m ρ c f h)
    (fun h => Glue.entry1_b2 m ρ c h) (fun h => Glue.entry1_w3 m ρ c h) (Glue.entry1_b3 m ρ c)

end Cert.KernelIdeal.Pointwise

end
-- ==== Proof.RefPointwise.lean ====
/-
  The reference program's first layer and its logits, read at an index.

  The reference computes `sent = x · W1 + b1` over [8, 512, 8, 1024]; from `sent` an array `before` of the same
  shape (a prefix maximum, taken here as it stands: nothing below looks inside it); `cur`, the two joined along the
  last axis into [8, 512, 8, 2048]; the hidden layer `max (cur · W2 + b2, 0)`; and the logits `hidden · W3 + b3`,
  reshaped from [8, 512, 8, 1] to [8, 512, 8].  Two readings are proved, over literal coordinates `(b, s, k)`:
  `ref_sent`, the first layer's entry `(b, s, k, h)` as `∑ f < 3072, x[b, s, k, f] · W1[f, h] + b1[h]`, and
  `ref_logit`, the logit at `(b, s, k)` as
  `∑ h < 1024, max (∑ f < 1024, sent[b, s, k, f] · W2[f, h] + ∑ f < 1024, before[b, s, k, f] · W2[1024 + f, h] + b2[h], 0) · W3[h, 0] + b3[0]`.
  The one law used is that a contraction over the 2048 positions of the joined axis is the contraction over the first
  1024, where `cur` is `sent`, plus the contraction over the last 1024, where it is `before` (`sum_halves`,
  `cur_left`, `cur_right`).  The same two readings are restated through the functions `sentAt`, `hiddenAt` and
  `logitAt` of arrays of extended reals (`ref_sent_at`, `ref_logit_at`).  All values are extended reals.
-/
import proofs.«112848_j2010044694969_1_alg».proof.Proof.RefRead
import Idealize.ShloMosaic.Lib.ValueIdx
import Idealize.ShloMosaic.Lib.Pipeline.Value
import Idealize.ShloMosaic.PureOps.Ideal.Laws

noncomputable section

namespace Cert.ReferenceIdeal.Pointwise

open Cert.ReferenceIdeal Cert.ReferenceIdeal.Gen Cert.ReferenceIdeal.ReadP
open Idealize.ShloMosaic Idealize.ShloMosaic.ValueIdx

/-! ## The layers as functions of arrays of extended reals -/

/-- The first layer at `(b, s, k, h)`: row `(b, s, k)` of `X` against column `h` of `W1`, summed over the 3072
    contraction positions, plus entry `h` of `b1`. -/
def sentAt (X : S8x512x8x3072.Idx → EReal) (W1 : S3072x1024.Idx → EReal) (b1 : S1024.Idx → EReal)
    (b : Fin 8) (s : Fin 512) (k : Fin 8) (h : Fin 1024) : EReal :=
  (∑ f : Fin 3072, X (ix4 b s k f) * W1 (ix2 f h)) + b1 (ix1 h)

/-- The hidden layer at `(b, s, k, h)`: row `(b, s, k)` of `sent` against the upper half of column `h` of `W2`,
    plus row `(b, s, k)` of `before` against the lower half, plus entry `h` of `b2`, cut off below at zero. -/
def hiddenAt (sent before : S8x512x8x1024.Idx → EReal) (W2 : S2048x1024.Idx → EReal) (b2 : S1024.Idx → EReal)
    (b : Fin 8) (s : Fin 512) (k : Fin 8) (h : Fin 1024) : EReal :=
  max ((∑ f : Fin 1024, sent (ix4 b s k f) * W2 (ix2 (⟨f.val, by omega⟩ : Fin 2048) h))
        + (∑ f : Fin 1024, before (ix4 b s k f) * W2 (ix2 (⟨1024 + f.val, by omega⟩ : Fin 2048) h))
        + b2 (ix1 h))
      (Ideal.ofBits .f32 0x00000000#32)

/-- The logit at `(b, s, k)`: the hidden layer's row `(b, s, k)` against the one column of `W3`, summed over its
    1024 positions, plus the one entry of `b3`. -/
def logitAt (sent before : S8x512x8x1024.Idx → EReal) (W2 : S2048x1024.Idx → EReal) (b2 : S1024.Idx → EReal)
    (W3 : S1024x1.Idx → EReal) (b3 : S1.Idx → EReal) (b : Fin 8) (s : Fin 512) (k : Fin 8) : EReal :=
  (∑ h : Fin 1024, hiddenAt sent before W2 b2 b s k h * W3 (ix2 h (0 : Fin 1))) + b3 (ix1 (0 : Fin 1))

/-! ## The first layer at an index -/

/-- The first product's left operand for the result entry `(b, s, k, h)` and the contraction position `f`. -/
theorem lidx0 (b : Fin 8) (s : Fin 512) (k : Fin 8) (h : Fin 1024) (f : Fin 3072) :
    lidx_main_v0 (ix4 b s k h) f = ix4 b s k f :=
  funext fun a => Fin.ext (by
    match a with
    | ⟨0, _⟩ => rfl
    | ⟨1, _⟩ => rfl
    | ⟨2, _⟩ => rfl
    | ⟨3, _⟩ => rfl)

/-- Its right operand for the same. -/
theorem ridx0 (b : Fin 8) (s : Fin 512) (k : Fin 8) (h : Fin 1024) (f : Fin 3072) :
    ridx_main_v0 (ix4 b s k h) f = ix2 f h :=
  funext fun a => Fin.ext (by
    match a with
    | ⟨0, _⟩ => rfl
    | ⟨1, _⟩ => rfl)

/-- The first bias, broadcast twice, is read at the last coordinate. -/
theorem bidx1 (b : Fin 8) (s : Fin 512) (k : Fin 8) (h : Fin 1024) :
    idx_main_v1 (idx_main_v2 (ix4 b s k h)) = ix1 h :=
  funext fun a => Fin.ext (by
    match a with
    | ⟨0, _⟩ => rfl)

/-- ENTRY `(b, s, k, h)` OF THE FIRST LAYER: row `(b, s, k)` of the input against column `h` of the first
    weight, summed over the 3072 contraction positions, plus entry `h` of the first bias. -/
theorem ref_sent (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (b : Fin 8) (s : Fin 512) (k : Fin 8) (h : Fin 1024) :
    val_main_v3 (F := Ideal) x0 x2 x3 (ix4 b s k h)
      = (∑ f : Fin 3072, x0 (ix4 b s k f) * x2 (ix2 f h)) + x3 (ix1 h) := by
  rw [val_main_v3_apply, val_main_v0_apply, val_main_v2_apply, val_main_v1_apply, bidx1, Ideal.addf_def]
  congr 1
  exact Finset.sum_congr rfl fun f _ => by rw [lidx0, ridx0]

/-- The same through `sentAt`. -/
theorem ref_sent_at (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (b : Fin 8) (s : Fin 512) (k : Fin 8) (h : Fin 1024) :
    val_main_v3 (F := Ideal) x0 x2 x3 (ix4 b s k h) = sentAt x0 x2 x3 b s k h :=
  ref_sent x0 x2 x3 b s k h

/-! ## The second layer's operands at an index -/

/-- The second product's left operand for the result entry `(b, s, k, h)` and the contraction position `g`. -/
theorem lidx10 (b : Fin 8) (s : Fin 512) (k : Fin 8) (h : Fin 1024) (g : Fin 2048) :
    lidx_main_v10 (ix4 b s k h) g = ix4 b s k g :=
  funext fun a => Fin.ext (by
    match a with
    | ⟨0, _⟩ => rfl
    | ⟨1, _⟩ => rfl
    | ⟨2, _⟩ => rfl
    | ⟨3, _⟩ => rfl)

/-- Its right operand for the same. -/
theorem ridx10 (b : Fin 8) (s : Fin 512) (k : Fin 8) (h : Fin 1024) (g : Fin 2048) :
    ridx_main_v10 (ix4 b s k h) g = ix2 g h :=
  funext fun a => Fin.ext (by
    match a with
    | ⟨0, _⟩ => rfl
    | ⟨1, _⟩ => rfl)

/-- The second bias, broadcast twice, is read at the last coordinate. -/
theorem bidx2 (b : Fin 8) (s : Fin 512) (k : Fin 8) (h : Fin 1024) :
    idx_main_v11 (idx_main_v12 (ix4 b s k h)) = ix1 h :=
  funext fun a => Fin.ext (by
    match a with
    | ⟨0, _⟩ => rfl)

/-- The concatenated array at a position `f < 1024` of its last axis is the first layer there … -/
theorem cur_left (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (b : Fin 8) (s : Fin 512) (k : Fin 8) (f : Fin 1024) :
    val_main_v9 (F := Ideal) x0 x2 x3 (ix4 b s k (⟨f.val, by omega⟩ : Fin 2048))
      = val_main_v3 (F := Ideal) x0 x2 x3 (ix4 b s k f) := by
  unfold val_main_v9
  generalize val_main_v3 (F := Ideal) x0 x2 x3 = y1
  generalize val_main_v8 (F := Ideal) x0 x2 x3 = y2
  exact concatenate_pair_apply_left 3 y1 y2 concatenates_S8x512x8x1024_S8x512x8x1024_S8x512x8x2048_d3
    (ix4 b s k (⟨f.val, by omega⟩ : Fin 2048)) rfl (ix4 b s k f) (fun a => by
      match a with
      | ⟨0, _⟩ => rfl
      | ⟨1, _⟩ => rfl
      | ⟨2, _⟩ => rfl
      | ⟨3, _⟩ => rfl)

/-- … and at a position `1024 + f` it is the second piece at `f`. -/
theorem cur_right (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (b : Fin 8) (s : Fin 512) (k : Fin 8) (f : Fin 1024) :
    val_main_v9 (F := Ideal) x0 x2 x3 (ix4 b s k (⟨1024 + f.val, by omega⟩ : Fin 2048))
      = val_main_v8 (F := Ideal) x0 x2 x3 (ix4 b s k f) := by
  unfold val_main_v9
  generalize val_main_v3 (F := Ideal) x0 x2 x3 = y1
  generalize val_main_v8 (F := Ideal) x0 x2 x3 = y2
  exact concatenate_pair_apply_right 3 y1 y2 concatenates_S8x512x8x1024_S8x512x8x1024_S8x512x8x2048_d3
    (ix4 b s k (⟨1024 + f.val, by omega⟩ : Fin 2048)) rfl rfl (ix4 b s k f) (fun a ha => by
      match a with
      | ⟨0, _⟩ => rfl
      | ⟨1, _⟩ => rfl
      | ⟨2, _⟩ => rfl
      | ⟨3, _⟩ => exact absurd rfl ha)
    (by show f.val + 1024 = 1024 + f.val; omega)

/-- A sum over 2048 positions is the sum over the first 1024 plus the sum over the last 1024. -/
theorem sum_halves (F : Fin 2048 → EReal) :
    ∑ g : Fin 2048, F g
      = (∑ f : Fin 1024, F (⟨f.val, by omega⟩ : Fin 2048)) + ∑ f : Fin 1024, F (⟨1024 + f.val, by omega⟩ : Fin 2048) :=
  Fin.sum_univ_add (a := 1024) (b := 1024) F

/-- ENTRY `(b, s, k, h)` OF THE SECOND PRODUCT: the contraction over the concatenated axis is the first layer
    against the upper half of the second weight plus the second piece against its lower half. -/
theorem ref_pre (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (x4 : (⟨S2048x1024, .f32⟩ : BufTy).Contents (Elt Ideal))
    (b : Fin 8) (s : Fin 512) (k : Fin 8) (h : Fin 1024) :
    val_main_v10 (F := Ideal) x0 x2 x3 x4 (ix4 b s k h)
      = (∑ f : Fin 1024, val_main_v3 (F := Ideal) x0 x2 x3 (ix4 b s k f) * x4 (ix2 (⟨f.val, by omega⟩ : Fin 2048) h))
        + ∑ f : Fin 1024, val_main_v8 (F := Ideal) x0 x2 x3 (ix4 b s k f) * x4 (ix2 (⟨1024 + f.val, by omega⟩ : Fin 2048) h) := by
  rw [val_main_v10_apply]
  refine (sum_halves _).trans ?_
  congr 1
  · exact Finset.sum_congr rfl fun f _ => by rw [lidx10, ridx10, cur_left]
  · exact Finset.sum_congr rfl fun f _ => by rw [lidx10, ridx10, cur_right]

/-! ## The hidden layer and the logit at an index -/

/-- ENTRY `(b, s, k, h)` OF THE HIDDEN LAYER: the second product plus entry `h` of the second bias, cut off
    below at zero. -/
theorem ref_hidden (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (x4 : (⟨S2048x1024, .f32⟩ : BufTy).Contents (Elt Ideal))
    (x5 : (⟨S1024, .f32⟩ : BufTy).Contents (Elt Ideal)) (b : Fin 8) (s : Fin 512) (k : Fin 8) (h : Fin 1024) :
    val_main_v14 (F := Ideal) x0 x2 x3 x4 x5 (ix4 b s k h)
      = max ((∑ f : Fin 1024, val_main_v3 (F := Ideal) x0 x2 x3 (ix4 b s k f) * x4 (ix2 (⟨f.val, by omega⟩ : Fin 2048) h))
              + (∑ f : Fin 1024, val_main_v8 (F := Ideal) x0 x2 x3 (ix4 b s k f) * x4 (ix2 (⟨1024 + f.val, by omega⟩ : Fin 2048) h))
              + x5 (ix1 h))
            (Ideal.ofBits .f32 0x00000000#32) := by
  rw [val_main_v14_apply, val_main_v13_apply, ref_pre, val_main_v12_apply, val_main_v11_apply, bidx2,
    val_main_call1_v0_apply, val_main_call1_cst_apply, Ideal.maximumf_def, Ideal.addf_def, Ideal.ofBits_def]

/-- The logits' change of shape [8, 512, 8, 1] → [8, 512, 8] reads entry `(b, s, k)` at `(b, s, k, 0)`. -/
theorem idx19 (b : Fin 8) (s : Fin 512) (k : Fin 8) : idx_main_v19 (ix3 b s k) = ix4 b s k (0 : Fin 1) := by
  have hb : b.val < 8 := b.isLt
  have hs : s.val < 512 := s.isLt
  have hk : k.val < 8 := k.isLt
  funext a
  apply Fin.ext
  match a with
  | ⟨0, _⟩ => show ((b.val * 512 + s.val) * 8 + k.val) / 4096 = b.val; omega
  | ⟨1, _⟩ => show ((b.val * 512 + s.val) * 8 + k.val) / 8 % 512 = s.val; omega
  | ⟨2, _⟩ => show ((b.val * 512 + s.val) * 8 + k.val) / 1 % 8 = k.val; omega
  | ⟨3, _⟩ => rfl

/-- The third product's left operand for the result entry `(b, s, k, 0)` and the contraction position `h`. -/
theorem lidx15 (b : Fin 8) (s : Fin 512) (k : Fin 8) (h : Fin 1024) :
    lidx_main_v15 (ix4 b s k (0 : Fin 1)) h = ix4 b s k h :=
  funext fun a => Fin.ext (by
    match a with
    | ⟨0, _⟩ => rfl
    | ⟨1, _⟩ => rfl
    | ⟨2, _⟩ => rfl
    | ⟨3, _⟩ => rfl)

/-- Its right operand for the same. -/
theorem ridx15 (b : Fin 8) (s : Fin 512) (k : Fin 8) (h : Fin 1024) :
    ridx_main_v15 (ix4 b s k (0 : Fin 1)) h = ix2 h (0 : Fin 1) :=
  funext fun a => Fin.ext (by
    match a with
    | ⟨0, _⟩ => rfl
    | ⟨1, _⟩ => rfl)

/-- The third bias, broadcast twice, is read at its one entry. -/
theorem bidx3 (b : Fin 8) (s : Fin 512) (k : Fin 8) :
    idx_main_v16 (idx_main_v17 (ix4 b s k (0 : Fin 1))) = ix1 (0 : Fin 1) :=
  funext fun a => Fin.ext (by
    match a with
    | ⟨0, _⟩ => rfl)

/-- THE LOGIT AT `(b, s, k)`: the hidden layer's row `(b, s, k)` against the one column of the third weight,
    summed over its 1024 positions, plus the third bias. -/
theorem ref_logit (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (x4 : (⟨S2048x1024, .f32⟩ : BufTy).Contents (Elt Ideal))
    (x5 : (⟨S1024, .f32⟩ : BufTy).Contents (Elt Ideal)) (x6 : (⟨S1024x1, .f32⟩ : BufTy).Contents (Elt Ideal))
    (x7 : (⟨S1, .f32⟩ : BufTy).Contents (Elt Ideal)) (b : Fin 8) (s : Fin 512) (k : Fin 8) :
    val_main_v19 (F := Ideal) x0 x2 x3 x4 x5 x6 x7 (ix3 b s k)
      = (∑ h : Fin 1024,
          max ((∑ f : Fin 1024, val_main_v3 (F := Ideal) x0 x2 x3 (ix4 b s k f) * x4 (ix2 (⟨f.val, by omega⟩ : Fin 2048) h))
                + (∑ f : Fin 1024, val_main_v8 (F := Ideal) x0 x2 x3 (ix4 b s k f) * x4 (ix2 (⟨1024 + f.val, by omega⟩ : Fin 2048) h))
                + x5 (ix1 h))
              (Ideal.ofBits .f32 0x00000000#32) * x6 (ix2 h (0 : Fin 1)))
        + x7 (ix1 (0 : Fin 1)) := by
  rw [val_main_v19_apply, idx19, val_main_v18_apply, val_main_v15_apply, val_main_v17_apply, val_main_v16_apply, bidx3,
    Ideal.addf_def]
  congr 1
  exact Finset.sum_congr rfl fun h _ => by rw [lidx15, ridx15, ref_hidden]

/-- The same through `logitAt`, of the first layer and of the array `before` as the reference computes them. -/
theorem ref_logit_at (x0 : (⟨S8x512x8x3072, .f32⟩ : BufTy).Contents (Elt Ideal)) (x2 : (⟨S3072x1024, .f32⟩ : BufTy).Contents (Elt Ideal))
    (x3 : (⟨S1024, .f32⟩ : BufTy).Contents (Elt Ideal)) (x4 : (⟨S2048x1024, .f32⟩ : BufTy).Contents (Elt Ideal))
    (x5 : (⟨S1024, .f32⟩ : BufTy).Contents (Elt Ideal)) (x6 : (⟨S1024x1, .f32⟩ : BufTy).Contents (Elt Ideal))
    (x7 : (⟨S1, .f32⟩ : BufTy).Contents (Elt Ideal)) (b : Fin 8) (s : Fin 512) (k : Fin 8) :
    val_main_v19 (F := Ideal) x0 x2 x3 x4 x5 x6 x7 (ix3 b s k)
      = logitAt (val_main_v3 (F := Ideal) x0 x2 x3) (val_main_v8 (F := Ideal) x0 x2 x3) x4 x5 x6 x7 b s k :=
  ref_logit x0 x2 x3 x4 x5 x6 x7 b s k

end Cert.ReferenceIdeal.Pointwise

end
-- ==== Proof.RefStages.lean ====
/-
  The reference's two stretches of operations that the kernel's program shares with it, as functions.

  After `sent = x · W1 + b1` the reference takes the running maximum of `sent` along the second axis and shifts it down
  by one place behind a row of zeros; after the logits it takes a softmax along the last axis and multiplies by the
  mask.  The kernel's program applies the same operations to its own `sent` and its own logits, so these two stretches
  are carried through the proof as two functions, applied on both sides to values shown equal, and never opened.
-/
import proofs.«112848_j2010044694969_1_alg».proof.Proof.RefRead

noncomputable section

namespace Cert.ReferenceIdeal.Stages

open Cert.ReferenceIdeal Cert.ReferenceIdeal.ReadP Cert.ReferenceIdeal.Facts₀ Cert.ReferenceIdeal.Facts
open Idealize.ShloMosaic

/-- The running maximum of `S` along the second axis, shifted down by one place behind a row of zeros: at `(b, 0, k, h)` it
    is zero, at `(b, s + 1, k, h)` the maximum of `S` over the places `0 … s` of that axis (a window of 512 places ending at
    the place, the 511 places of padding in front filled with the initial value `-∞`). -/
def before (S : (⟨S8x512x8x1024, .f32⟩ : BufTy).Contents (Elt Ideal)) : (⟨S8x512x8x1024, .f32⟩ : BufTy).Contents (Elt Ideal) :=
  concatenate S8x512x8x1024 1
    [⟨S8x1x8x1024, broadcastInDim S8x1x8x1024 ![] bcast_S_S8x1x8x1024 (constant (F := Ideal) S_ .f32 0x00000000#32)⟩,
     ⟨S8x511x8x1024, extractStridedSlice S8x511x8x1024 ![0, 0, 0, 0]
        (Host.reduceWindow (FloatOps.maximumf (F := Ideal) (φ := .f32)) ![1, 512, 1, 1] ![1, 1, 1, 1] ![0, 511, 0, 0] ![0, 0, 0, 0] S
          (broadcastInDim S_ ![] bcast_S_S_ (constant (F := Ideal) S_ .f32 0xFF800000#32))
          reduceWindows_S8x512x8x1024_S8x512x8x1024_w1s1p0_0_w512s1p511_0_w1s1p0_0_w1s1p0_0 h_S_)
        slices_S8x512x8x1024_S8x511x8x1024_0_0_0_0⟩]
    concatenates_S8x1x8x1024_S8x511x8x1024_S8x512x8x1024_d1

/-- `exp (L − max L)` along the last axis, the maximum taken against `-∞`. -/
def expShifted (L : (⟨S8x512x8, .f32⟩ : BufTy).Contents (Elt Ideal)) : (⟨S8x512x8, .f32⟩ : BufTy).Contents (Elt Ideal) :=
  Host.exp (F := Ideal) (subf L
    (broadcastInDim S8x512x8 ![0, 1, 2] bcast_S8x512x1_S8x512x8_0_1_2
      (broadcastInDim S8x512x1 ![0, 1] bcast_S8x512_S8x512x1_0_1
        (maximumf (broadcastInDim S8x512 ![] bcast_S_S8x512 (constant (F := Ideal) S_ .f32 0xFF800000#32))
          (Host.reduce (FloatOps.maximumf (F := Ideal) (φ := .f32)) L (constant (F := Ideal) S_ .f32 0xFF800000#32)
            reducesTo_S8x512x8_S8x512_d2 h_S_)))))

/-- The softmax of `L` along the last axis, times the mask `M` read as numbers. -/
def softmaxMasked (L : (⟨S8x512x8, .f32⟩ : BufTy).Contents (Elt Ideal)) (M : (⟨S8x512x8, .i32⟩ : BufTy).Contents (Elt Ideal)) : (⟨S8x512x8, .f32⟩ : BufTy).Contents (Elt Ideal) :=
  mulf (Host.divf (F := Ideal) (expShifted L)
      (broadcastInDim S8x512x8 ![0, 1, 2] bcast_S8x512x1_S8x512x8_0_1_2
        (broadcastInDim S8x512x1 ![0, 1] bcast_S8x512_S8x512x1_0_1
          (Host.reduceAdd (F := Ideal) (expShifted L) (constant (F := Ideal) S_ .f32 0x00000000#32)
            reducesTo_S8x512x8_S8x512_d2 h_S_))))
    (sitofp .f32 M)

/-- The reference's shifted maximum is `before` of its `sent`. -/
theorem before_eq (x0 : (⟨S8x512x8x3072, .f32⟩ : BufTy).Contents (Elt Ideal)) (x2 : (⟨S3072x1024, .f32⟩ : BufTy).Contents (Elt Ideal)) (x3 : (⟨S1024, .f32⟩ : BufTy).Contents (Elt Ideal)) :
    val_main_v8 (F := Ideal) x0 x2 x3 = before (val_main_v3 (F := Ideal) x0 x2 x3) := by
  unfold val_main_v8 val_main_v7 val_main_v6 val_main_v4 val_main_cst val_main_call0_v0 val_main_call0_cst before
  rfl

/-- The reference's result is the masked softmax of its logits. -/
theorem result_eq (x0 : (⟨S8x512x8x3072, .f32⟩ : BufTy).Contents (Elt Ideal)) (x1 : (⟨S8x512x8, .i32⟩ : BufTy).Contents (Elt Ideal)) (x2 : (⟨S3072x1024, .f32⟩ : BufTy).Contents (Elt Ideal))
    (x3 : (⟨S1024, .f32⟩ : BufTy).Contents (Elt Ideal)) (x4 : (⟨S2048x1024, .f32⟩ : BufTy).Contents (Elt Ideal)) (x5 : (⟨S1024, .f32⟩ : BufTy).Contents (Elt Ideal))
    (x6 : (⟨S1024x1, .f32⟩ : BufTy).Contents (Elt Ideal)) (x7 : (⟨S1, .f32⟩ : BufTy).Contents (Elt Ideal)) :
    val_main_v32 (F := Ideal) x0 x1 x2 x3 x4 x5 x6 x7
      = softmaxMasked (val_main_v19 (F := Ideal) x0 x2 x3 x4 x5 x6 x7) x1 := by
  unfold val_main_v32 val_main_v31 val_main_v30 val_main_v29 val_main_v28 val_main_v27 val_main_cst_2 val_main_v26 val_main_v25
    val_main_v24 val_main_v23 val_main_v22 val_main_v21 val_main_cst_1 val_main_v20 val_main_cst_0 softmaxMasked expShifted
  rfl

end Cert.ReferenceIdeal.Stages

end
-- ==== Proof.Bridge.lean ====
/-
  The idealized kernel and the idealized reference compute one function of the arguments.

  Both programs build the same four things in the same order.  `sent`: the kernel's first region leaves `x · W1 + b1`
  row by row, the reference takes the same contraction in one operation, and index by index both are
  `∑ f < 3072, x[b, s, k, f] · W1[f, h] + b1[h]`.  `before`: the same operations applied to `sent` on both sides.  The
  logits: the kernel's second region contracts `sent` against the upper half of `W2` and `before` against the lower half
  and adds the two, the reference contracts the two joined along the last axis against the whole of `W2`; a sum over
  2048 positions is the sum over the first 1024 plus the sum over the last 1024, so both are the same head of `sent`
  and `before`.  The result: the same masked softmax applied to the logits on both sides.  Only the order and grouping
  of additions differ between the two programs, so nothing here needs the arguments to be finite.
-/
import proofs.«112848_j2010044694969_1_alg».proof.Proof.KernelPointwise
import proofs.«112848_j2010044694969_1_alg».proof.Proof.RefPointwise
import proofs.«112848_j2010044694969_1_alg».proof.Proof.RefStages

noncomputable section

namespace Cert.Bridge

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The kernel's `sent` is the reference's, of the same arguments: index by index both are the first layer. -/
theorem sent_eq :
    Cert.KernelIdeal.Glue.sent m ρ c
      = Cert.ReferenceIdeal.ReadP.val_main_v3 (F := Ideal) (m ((c : Thread nD τ).loc main_arg0)) (m ((c : Thread nD τ).loc main_arg2)) (m ((c : Thread nD τ).loc main_arg3)) := by
  funext (i : S8x512x8x1024.Idx)
  obtain ⟨b, s, k, h, rfl⟩ : ∃ (b : Fin 8) (s : Fin 512) (k : Fin 8) (h : Fin 1024), i = ix4 b s k h :=
    ⟨i 0, i 1, i 2, i 3, eq_ix4 i⟩
  rw [Cert.ReferenceIdeal.Pointwise.ref_sent_at]
  exact (Cert.KernelIdeal.Pointwise.sent_at m ρ c b s k h).trans rfl

/-- The shifted running maximum is the same function on both sides, applied to the same `sent`. -/
theorem before_eq :
    Cert.KernelIdeal.Glue.before (Cert.KernelIdeal.Glue.sent m ρ c)
      = Cert.ReferenceIdeal.ReadP.val_main_v8 (F := Ideal) (m ((c : Thread nD τ).loc main_arg0)) (m ((c : Thread nD τ).loc main_arg2)) (m ((c : Thread nD τ).loc main_arg3)) := by
  rw [Cert.ReferenceIdeal.Stages.before_eq, ← sent_eq m ρ c]
  rfl

/-- The kernel's logits are the reference's: index by index both are the head of `sent` and `before`. -/
theorem logits_eq :
    Cert.KernelIdeal.Glue.logits m ρ c
      = Cert.ReferenceIdeal.ReadP.val_main_v19 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext (i : S8x512x8.Idx)
  obtain ⟨b, s, k, rfl⟩ : ∃ (b : Fin 8) (s : Fin 512) (k : Fin 8), i = ix3 b s k := ⟨i 0, i 1, i 2, eq_ix3 i⟩
  rw [Cert.ReferenceIdeal.Pointwise.ref_logit_at, ← sent_eq m ρ c, ← before_eq m ρ c]
  exact (Cert.KernelIdeal.Pointwise.logit_at m ρ c b s k).trans rfl

/-- The kernel's result is the reference's result term of the same arguments: the same masked softmax of the same logits. -/
theorem result_eq :
    W7 m ρ c (Proc.devRef .tc main_v35)
      = Cert.ReferenceIdeal.ReadP.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.KernelIdeal.Glue.result_value, Cert.ReferenceIdeal.Stages.result_eq, ← logits_eq m ρ c]
  rfl

end Cert.Bridge

end
-- ==== Proof.lean ====
/-
  The proof of `Cert.Claim`: a classifier head written as two kernels with plain operations between them, against its
  reference, over the extended reals.

  The program maps `x : [8, 512, 8, 3072]` to `sent = x · W1 + b1`, forms `before`, the running maximum of `sent` along the
  second axis shifted down by one place behind zeros, then `logits = max ([sent, before] · W2 + b2, 0) · W3 + b3`, and
  returns the softmax of the logits along the last axis times the mask.  The kernel computes `sent` in a first region,
  1024 rows of the reshaped `x` at a time, and the logits in a second region, 2048 rows at a time, contracting `sent`
  against the upper half of `W2` and `before` against the lower half; the reference contracts the two joined along the
  last axis against the whole of `W2`.  Exactly computed, the two differ only in how a sum of 2048 products is grouped.

  The three frames: the two kernel programs' are the generated frame certificates; the reference's is its run with the
  result dropped.  `preserves`: idealizing rewrote no operation.  `algebraic`: the kernel's run with its result named
  (Proof/KernelRun.lean), the reference's run (Proof/RefRun.lean), and the two results shown to be one function of the
  arguments (Proof/Bridge.lean, over the regions' arrays in Proof/SentArray.lean and Proof/LogitArray.lean, the host
  operations in Proof/HostGlue.lean, and the two sides read at an index in Proof/KernelPointwise.lean and
  Proof/RefPointwise.lean).  No step uses that the arguments are finite.
-/
import proofs.«112848_j2010044694969_1_alg».proof.Defs
import proofs.«112848_j2010044694969_1_alg».proof.Proof.Gen.Kernel
import proofs.«112848_j2010044694969_1_alg».proof.Proof.Gen.Kernel.Frame
import proofs.«112848_j2010044694969_1_alg».proof.Proof.Gen.KernelIdeal
import proofs.«112848_j2010044694969_1_alg».proof.Proof.Gen.KernelIdeal.Frame
import proofs.«112848_j2010044694969_1_alg».proof.Proof.Gen.ReferenceIdeal
import proofs.«112848_j2010044694969_1_alg».proof.Proof.Gen.Pre_finite_inputs
import proofs.«112848_j2010044694969_1_alg».proof.Proof.RefRead
import proofs.«112848_j2010044694969_1_alg».proof.Proof.KernelRun
import proofs.«112848_j2010044694969_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments unchanged: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Idealizing rewrote no operation of the kernel: there is nothing to preserve. -/
theorem preserves : Cert.preserves_Kernel_KernelIdeal := trivial

/-- From memories that agree on the arguments both programs run, and end with the same result: the kernel's result
    array is the last boundary's contents, the reference's is its composed term, and the two are one function of the
    arguments (`Cert.Bridge.result_eq`). -/
theorem algebraic : Cert.algebraic_KernelIdeal_ReferenceIdeal := by
  intro m ρ m' ρ' _ hagree
  refine ⟨fun c => Cert.KernelIdeal.Gen.W7 m ρ c (Proc.devRef .tc Cert.KernelIdeal.main_v35),
    Cert.KernelIdeal.Run.result m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v32_eq, e0, e1, e2, e3, e4, e5, e6, e7]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
